-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x16384 : Shape := ⟨2, ![1, 16384]⟩
abbrev S2048x2048 : Shape := ⟨2, ![2048, 2048]⟩
abbrev S1x2048 : Shape := ⟨2, ![1, 2048]⟩
abbrev S2048 : Shape := ⟨1, ![2048]⟩
abbrev S16384x1 : Shape := ⟨2, ![16384, 1]⟩
abbrev S1x64 : Shape := ⟨2, ![1, 64]⟩
abbrev S1024x2048 : Shape := ⟨2, ![1024, 2048]⟩
abbrev S1024x64 : Shape := ⟨2, ![1024, 64]⟩
abbrev S2048x64 : Shape := ⟨2, ![2048, 64]⟩
abbrev S2048x1 : Shape := ⟨2, ![2048, 1]⟩

abbrev nBuf : Space → Nat
  | .hbm => 11
  | .vmem => 17
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S1x16384, .f32⟩
  | .hbm, ⟨6, _⟩ => ⟨S16384x1, .f32⟩
  | .hbm, ⟨7, _⟩ => ⟨S16384x64, .f32⟩
  | .hbm, ⟨8, _⟩ => ⟨S16384x64, .f32⟩
  | .hbm, ⟨9, _⟩ => ⟨S1x64, .f32⟩
  | .hbm, ⟨10, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S1024x64, .f32⟩
  | .local _ .vmem, ⟨8, _⟩ => ⟨S1024x64, .f32⟩
  | .local _ .vmem, ⟨9, _⟩ => ⟨S2048x64, .f32⟩
  | .local _ .vmem, ⟨10, _⟩ => ⟨S2048x64, .f32⟩
  | .local _ .vmem, ⟨11, _⟩ => ⟨S2048x1, .f32⟩
  | .local _ .vmem, ⟨12, _⟩ => ⟨S2048x1, .f32⟩
  | .local _ .vmem, ⟨13, _⟩ => ⟨S1x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  shapeCasts_S1x16384_S16384x1 : S1x16384.ShapeCasts S16384x1
  bcast_S16384x1_S16384x64_0_1 : S16384x1.BroadcastsInDim S16384x64 (![0, 1] : Fin 2 → Fin S16384x64.rank)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S16384x64_S64x64_S16384x64_1_0_0_1_n_n_wf : DotDims.WF S16384x64 S64x64 S16384x64 [1] [0] [0] [1] [] []
  dot_S1024x2048_S1024x64_S2048x64_0_0_1_1_n_n_wf : DotDims.WF S1024x2048 S1024x64 S2048x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S16384x64.size a
  hwx1_1 : ∀ i : grid1.Coords, EltTy.bits .f32 = 32 ∨ (Rect.block (s := S16384x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .f32 = 32 ∨ (Rect.block (s := S16384x1) S2048x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S16384x64.size a
  hwx1_5 : ∀ i : grid1.Coords, EltTy.bits .f32 = 32 ∨ (Rect.block (s := S16384x64) S2048x64.size (cc1_transform_5 i) (hinb1_5 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x2048_S1024x64_S2048x64_0_0_1_1_n_n : DotDims S1024x2048 S1024x64 S2048x64 where
  lhsContracting := [0]
  rhsContracting := [0]
  lhsNonContracting := [1]
  rhsNonContracting := [1]
  lhsBatch := []
  rhsBatch := []
  wf := dot_S1024x2048_S1024x64_S2048x64_0_0_1_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .i1⟩
  | .hbm, ⟨12, _⟩ => ⟨S16384, .f32⟩
  | .hbm, ⟨13, _⟩ => ⟨S_, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x64, .f32⟩
  | .hbm, ⟨18, _⟩ => ⟨S16384x1, .f32⟩
  | .hbm, ⟨19, _⟩ => ⟨S16384x64, .f32⟩
  | .hbm, ⟨20, _⟩ => ⟨S16384x64, .f32⟩
  | .hbm, ⟨21, _⟩ => ⟨S16384x1, .f32⟩
  | .hbm, ⟨22, _⟩ => ⟨S16384x16384, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S1x64, .f32⟩
  | .hbm, ⟨28, _⟩ => ⟨S16384x64, .f32⟩
  | .hbm, ⟨29, _⟩ => ⟨S16384x64, .f32⟩
  | .hbm, ⟨30, _⟩ => ⟨S_, .f32⟩
  | .hbm, ⟨31, _⟩ => ⟨S16384x64, .f32⟩
  | .hbm, ⟨32, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_cst : Ref sig .tc := ⟨.hbm, 30, rfl⟩
abbrev main_call1_v0 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S16384x16384_S16384_d0 : S16384x16384.ReducesTo [0] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  transposes_S16384x16384_S16384x16384_1_0 : S16384x16384.Transposes [1, 0] S16384x16384
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KDegShared.lean ====
import proofs.«150147_j40415642255629_2_alg».proof.Proof.Gen.Kernel.Launch
import proofs.«150147_j40415642255629_2_alg».proof.Proof.Gen.Kernel.Skeleton
import proofs.«150147_j40415642255629_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the degree pass, pipeline 0), at the buffer contents `V` the region is entered with -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array
    is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional's condition: the row-block coordinate is 0 (the accumulator is zeroed). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition: the row-block coordinate is 7 (the output block is stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input window is never idle. -/
theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1x2048 .f32 := (Memref.whole cc0_stg1_0 : Memref sig .tc .vmem S1x2048 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The scratch accumulator: a whole scoped buffer passed beside the windows. -/
abbrev scM0_0 : Memref sig .tc .vmem S1x2048 .f32 := Memref.whole cc0_scratch0
abbrev VS0_0 : View sig .tc .vmem S1x2048 .f32 := scM0_0.view

/-- The scoped buffers of the other pass, which this region never touches: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region's invariant with the scratch accumulator as a memref owned at some contents, the other pass's
    buffers beside it. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Hand

end
-- ==== Proof.KDegRunA.lean ====
import proofs.«150147_j40415642255629_2_alg».proof.Proof.KDegShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the accumulator is zeroed and the output is not stored: on whole memrefs — the
    input block at `x0`, the idle output buffer at `xi1` (handed back untouched), the accumulator at anything —
    it runs to the continuation with the accumulator's pieces written; the pieces are found by running the
    body's memory operations. -/
noncomputable def kernelRun0_A (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KDegRunB.lean ====
import proofs.«150147_j40415642255629_2_alg».proof.Proof.KDegShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point (no zeroing, no output store): the input block at `x0`, the idle output buffer
    at `xi1`, the accumulator at what the point before left (`xs0`). -/
noncomputable def kernelRun0_B (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KDegRunC.lean ====
import proofs.«150147_j40415642255629_2_alg».proof.Proof.KDegShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a column of the grid (no zeroing; the output block is stored): the input block
    at `x0`, the output buffer at anything, the accumulator at what the point before left (`xs0`). -/
noncomputable def kernelRun0_C (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.KDegData.lean ====
import proofs.«150147_j40415642255629_2_alg».proof.Proof.KDegRunA
import proofs.«150147_j40415642255629_2_alg».proof.Proof.KDegRunB
import proofs.«150147_j40415642255629_2_alg».proof.Proof.KDegRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output window's buffer and in the accumulator -/

/-- A point that does not store the output: no pieces — a placeholder nothing consults, the window being idle
    and not written back there. -/
def out0_A_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) : Vec F S1x2048 .f32 :=
  VO0_1.read (Elt F) (VO0_1.writes (Elt F) VO0_1.junk (kernelRun0_A c i arg2 harg2 arg3 harg3 arg4 harg4 hc0 hc1 x0).1)

/-- The pieces the zeroing case writes into the accumulator tile it. -/
theorem scover0_A_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) (y : S1x2048.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x2048.size (by sl_kernel_rfl) y

/-- What the zeroing case leaves in the accumulator: its pieces read back. -/
def sout0_A_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) : Vec F S1x2048 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) : Vec F S1x2048 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) (y : S1x2048.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x2048.size (by sl_kernel_rfl) y

def sout0_B_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) : Vec F S1x2048 .f32 :=
  VS0_0.read (Elt F) (VS0_0.writes (Elt F) VS0_0.junk (kernelRun0_B c i arg2 harg2 arg3 harg3 arg4 harg4 hc0 hc1 x0 xs0).2.1)

/-- The storing case's one store tiles the output block. -/
theorem cover0_C_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) (y : S1x2048.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x2048.size (by sl_kernel_rfl) y

/-- What the storing case leaves in the output window's buffer. -/
def out0_C_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) : Vec F S1x2048 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) (y : S1x2048.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x2048.size (by sl_kernel_rfl) y

def sout0_C_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) : Vec F S1x2048 .f32 :=
  VS0_0.read (Elt F) (VS0_0.writes (Elt F) VS0_0.junk (kernelRun0_C c i arg2 harg2 arg3 harg3 arg4 harg4 hc0 hc1 x0 xs0).2.1)

/-! ## What the output window's buffer and the accumulator hold after each point -/

/-- The accumulation: (the output window's staging contents, the accumulator's contents) after the body at
    position `n`. At a point ≡ 0 (mod 8) the accumulator restarts (nothing of the point before is read);
    elsewhere the case runs over what the point before left in the accumulator. -/
def outsAt0 (c : Dev nD) : (n : ℕ) → n < cfg0.N → Vec F S1x2048 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a point ≡ 0 (mod 8). -/
theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a middle point: over what the point before left in the accumulator. -/
theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point ≡ 7 (mod 8): over what the point before left in the accumulator. -/
theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's entry invariant (the accumulator
    at anything); afterwards the accumulator at what the point before left, the other pass's buffers at some
    contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The proof data of the region on core `c`: the arrays as the region finds them (`V`); after the body at point
    `t` the input's buffer at its block and the output's at `outsAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the
    accumulator at what the point before left (at anything at the first point) and takes it back at this point's
    contents; the other pass's buffers and the generator register ride along. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _)
            iexact Hoth
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KGcnShared.lean ====
/-
  The aggregation kernel (the second pallas_call: an accumulator over the sixteen row blocks of the adjacency,
  zeroed at the first, flushed through the epilogue at the last), at the contents `V` its region is entered from:
  each window's block at a grid point, the two branch conditions in closed form over the grid, where the output
  window is idle, the staging and scratch memrefs, and the region's invariant with the accumulator named.
-/
import proofs.«150147_j40415642255629_2_alg».proof.Proof.Gen.Kernel.Launch
import proofs.«150147_j40415642255629_2_alg».proof.Proof.Gen.Kernel.Skeleton
import proofs.«150147_j40415642255629_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional: the reduction coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional: the reduction coordinate is the last. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional fails the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S2048x64 .f32 := (Memref.whole cc1_stg5_0 : Memref sig .tc .vmem S2048x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S2048x64 .f32 := Memref.whole cc1_scratch0
abbrev VS1_0 : View sig .tc .vmem S2048x64 .f32 := scM1_0.view

/-- The region's invariant with the accumulator's part `S`: the other pallas_call's scoped buffers (never touched here),
    each whole at some contents, then `S`, beside the generator register at some state. -/
def PhiWith1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S) ∗ (∃ r, prngReg c r))

/-- Before the first point the accumulator is at anything. -/
theorem PhiA1_eq (c : Dev nD) :
    (Pipeline.ΦA spec1 c : sProp 𝕄) = PhiWith1 c (iprop(∃ d, owns (c : Thread nD τ) scM1_0 fullShare d)) := by
  unfold Pipeline.ΦA PhiWith1; rw [scopedRest1_eq]; simp only [scM1_0, owns_whole]; try rfl

end Cert.Kernel.Hand

end
-- ==== Proof.KGcnRunA.lean ====
/-
  The aggregation kernel's body at the first row block of a column of the grid: the accumulator, found at
  anything, is zeroed and then receives the block's product; nothing is stored into the output.
-/
import proofs.«150147_j40415642255629_2_alg».proof.Proof.KGcnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case, WITH the proof that from the two staged operand
    blocks held whole and the accumulator held at anything the body runs to its end, handing the operand blocks back
    as they were and the accumulator with those pieces written. -/
noncomputable def kernelRun1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S1024x2048 .f32) (x1 : Vec F S1024x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KGcnRunB.lean ====
/-
  The aggregation kernel's body at a row block that is neither the first nor the last of its column of the grid:
  the accumulator, found at what the block before left, receives the block's product; nothing is stored into the output.
-/
import proofs.«150147_j40415642255629_2_alg».proof.Proof.KGcnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case, WITH the proof that from the two staged operand
    blocks and the accumulator held whole the body runs to its end, handing the operand blocks back as they were and
    the accumulator with those pieces written. -/
noncomputable def kernelRun1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S1024x2048 .f32) (x1 : Vec F S1024x64 .f32) (xs0 : Vec F S2048x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg8 fullShare xs0
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.KGcnRunC.lean ====
/-
  The aggregation kernel's body at the last row block of a column of the grid: the accumulator receives the block's
  product, and the epilogue (scale by the column's normaliser, add the self term and the bias, clamp at zero) is
  stored into the output block.
-/
import proofs.«150147_j40415642255629_2_alg».proof.Proof.KGcnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block and in the accumulator in this case, WITH the proof that
    from the five staged operand blocks and the accumulator held whole, the output's buffer at anything, the body runs
    to its end, handing the operand blocks back as they were and the two written buffers with those pieces. -/
noncomputable def kernelRun1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S1024x2048 .f32) (x1 : Vec F S1024x64 .f32) (x2 : Vec F S2048x64 .f32) (x3 : Vec F S2048x1 .f32) (x4 : Vec F S1x64 .f32) (xs0 : Vec F S2048x64 .f32) :
    Σ' (L5 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KGcnData.lean ====
/-
  The aggregation kernel's region: what the accumulator and the output block hold after each grid point (the case
  the point is in, run on the point's blocks, over what the point before left in the accumulator), the region's
  invariant (the accumulator named from the second point on), the proof data at the entry contents `V`, and the body
  obligation at every point.
-/
import proofs.«150147_j40415642255629_2_alg».proof.Proof.KGcnRunA
import proofs.«150147_j40415642255629_2_alg».proof.Proof.KGcnRunB
import proofs.«150147_j40415642255629_2_alg».proof.Proof.KGcnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The first row block of a column: the run on the point's adjacency and feature blocks. -/
abbrev runA_at (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t)
/-- A middle row block, over what the block before left in the accumulator. -/
abbrev runB_at (c : Dev nD) (t : Fin cfg1.N) (h0 : ¬t.val % 16 = 0) (h1 : ¬t.val % 16 = 15) (xs0 : Vec F S2048x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) xs0
/-- The last row block, over what the block before left in the accumulator. -/
abbrev runC_at (c : Dev nD) (t : Fin cfg1.N) (h0 : ¬t.val % 16 = 0) (h1 : t.val % 16 = 15) (xs0 : Vec F S2048x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0

theorem scoverA (c : Dev nD) (t : Fin cfg1.N) (h0 : t.val % 16 = 0) (h1 : ¬t.val % 16 = 15) (y : S2048x64.Idx) :
    ∃ pc ∈ (runA_at V c t h0 h1).1, y ∈ pc.1.set :=
  View.cover_of_tiledL (runA_at V c t h0 h1).1 S2048x64.size (by sl_kernel_rfl) y
theorem scoverB (c : Dev nD) (t : Fin cfg1.N) (h0 : ¬t.val % 16 = 0) (h1 : ¬t.val % 16 = 15) (xs0 : Vec F S2048x64 .f32) (y : S2048x64.Idx) :
    ∃ pc ∈ (runB_at V c t h0 h1 xs0).1, y ∈ pc.1.set :=
  View.cover_of_tiledL (runB_at V c t h0 h1 xs0).1 S2048x64.size (by sl_kernel_rfl) y
theorem scoverC (c : Dev nD) (t : Fin cfg1.N) (h0 : ¬t.val % 16 = 0) (h1 : t.val % 16 = 15) (xs0 : Vec F S2048x64 .f32) (y : S2048x64.Idx) :
    ∃ pc ∈ (runC_at V c t h0 h1 xs0).2.1, y ∈ pc.1.set :=
  View.cover_of_tiledL (runC_at V c t h0 h1 xs0).2.1 S2048x64.size (by sl_kernel_rfl) y
theorem coverC (c : Dev nD) (t : Fin cfg1.N) (h0 : ¬t.val % 16 = 0) (h1 : t.val % 16 = 15) (xs0 : Vec F S2048x64 .f32) (y : S2048x64.Idx) :
    ∃ pc ∈ (runC_at V c t h0 h1 xs0).1, y ∈ pc.1.set :=
  View.cover_of_tiledL (runC_at V c t h0 h1 xs0).1 S2048x64.size (by sl_kernel_rfl) y

/-- What each case leaves in the accumulator: its pieces read back. -/
def accA (c : Dev nD) (t : Fin cfg1.N) (h0 : t.val % 16 = 0) (h1 : ¬t.val % 16 = 15) : Vec F S2048x64 .f32 :=
  VS1_0.read (Elt F) (VS1_0.writes (Elt F) VS1_0.junk (runA_at V c t h0 h1).1)
def accB (c : Dev nD) (t : Fin cfg1.N) (h0 : ¬t.val % 16 = 0) (h1 : ¬t.val % 16 = 15) (xs0 : Vec F S2048x64 .f32) : Vec F S2048x64 .f32 :=
  VS1_0.read (Elt F) (VS1_0.writes (Elt F) VS1_0.junk (runB_at V c t h0 h1 xs0).1)
def accC (c : Dev nD) (t : Fin cfg1.N) (h0 : ¬t.val % 16 = 0) (h1 : t.val % 16 = 15) (xs0 : Vec F S2048x64 .f32) : Vec F S2048x64 .f32 :=
  VS1_0.read (Elt F) (VS1_0.writes (Elt F) VS1_0.junk (runC_at V c t h0 h1 xs0).2.1)
/-- What the last case leaves in the output block. -/
def outC (c : Dev nD) (t : Fin cfg1.N) (h0 : ¬t.val % 16 = 0) (h1 : t.val % 16 = 15) (xs0 : Vec F S2048x64 .f32) : Vec F S2048x64 .f32 :=
  VO1_5.read (Elt F) (VO1_5.writes (Elt F) VO1_5.junk (runC_at V c t h0 h1 xs0).1)
/-- A placeholder for the output block where the body stores nothing into it (never read: the window is idle there). -/
def idleOut : Vec F S2048x64 .f32 := VO1_5.read (Elt F) VO1_5.junk

/-! ## What the buffers hold after each point -/

/-- The output block's staging contents and the accumulator's contents after the body at position `n`. -/
def outsAt1 (c : Dev nD) : (n : ℕ) → n < cfg1.N → Vec F S2048x64 .f32 × Vec F S2048x64 .f32
  | 0, hn => (idleOut, accA V c ⟨0, hn⟩ (Nat.zero_mod _) (by show ¬(0 : ℕ) % 16 = 15; decide))
  | n + 1, hn =>
    if h0 : (n + 1) % 16 = 0 then
      if h1 : (n + 1) % 16 = 15 then
        False.elim (by omega)
      else
        (idleOut, accA V c ⟨n + 1, hn⟩ h0 h1)
    else
      if h1 : (n + 1) % 16 = 15 then
        (outC V c ⟨n + 1, hn⟩ h0 h1 (outsAt1 c n (Nat.lt_of_succ_lt hn)).2, accC V c ⟨n + 1, hn⟩ h0 h1 (outsAt1 c n (Nat.lt_of_succ_lt hn)).2)
      else
        (idleOut, accB V c ⟨n + 1, hn⟩ h0 h1 (outsAt1 c n (Nat.lt_of_succ_lt hn)).2)

theorem outsAt1_A (c : Dev nD) (t : Fin cfg1.N) (h0 : t.val % 16 = 0) (h1 : ¬t.val % 16 = 15) :
    outsAt1 V c t.val t.isLt = (idleOut, accA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut, accB V c t h0 h1 (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC V c t h0 h1 (outsAt1 V c (t.val - 1) (Nat.lt_of_le_of_lt (Nat.sub_le _ _) t.isLt)).2, accC V c t h0 h1 (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region invariant before position `n`: at the start the accumulator at anything; afterwards at what the
    point before left in it. -/
def PhiS1 (c : Dev nD) : (n : ℕ) → n ≤ cfg1.N → sProp 𝕄
  | 0, _ => Pipeline.ΦA spec1 c
  | n + 1, hn => PhiWith1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith1 c (owns (c : Thread nD τ) scM1_0 fullShare ((outsAt1 V c n hn).2)) := rfl
theorem PhiS1_pos (c : Dev nD) (n : ℕ) (h : n ≤ cfg1.N) (hz : n ≠ 0) :
    PhiS1 V c n h = PhiWith1 c (owns (c : Thread nD τ) scM1_0 fullShare ((outsAt1 V c (n - 1) (by omega)).2)) := by
  cases n with
  | zero => exact absurd rfl hz
  | succ n => rfl

/-! ## The proof data -/

/-- The region's proof data on core `c`: the arrays as the region finds them; after the body each input's buffer at
    its block, the output's at `outsAt1`; the invariant; nothing owed; the feature array, staged through two
    windows, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.Kernel.Hand

end
-- ==== Proof.KGcnBody.lean ====
/-
  The aggregation kernel's body obligation: at every grid point the staged blocks are the arrays' blocks, the closed
  forms say which of the three cases the point is in, that case's run applies, and the invariant takes the accumulator
  back at the point's contents.
-/
import proofs.«150147_j40415642255629_2_alg».proof.Proof.KGcnData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold accA; (try dsimp only)
    by_cases hz : t.val = 0
    · rw [PhiS1_castSucc V c t, PhiS1_zero V c _ _ hz, PhiA1_eq]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runA_at V c t h0 h1).2 Set.univ _)
      isplitl [H0]; · iexact H0
      isplitl [H1]; · iexact H1
      isplitl [HS0]; · iexact HS0
      iintro ⟨H0, H1, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverA V c t h0 h1)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runA_at V c t h0 h1).2 Set.univ _)
      isplitl [H0]; · iexact H0
      isplitl [H1]; · iexact H1
      isplitl [HS0]; · iexists _; iexact HS0
      iintro ⟨H0, H1, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverA V c t h0 h1)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC accC; (try dsimp only)
      rw [PhiS1_castSucc V c t, PhiS1_pos V c _ _ hz]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runC_at V c t h0 h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverC V c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t h0 h1 _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold accB; (try dsimp only)
      rw [PhiS1_castSucc V c t, PhiS1_pos V c _ _ hz]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runB_at V c t h0 h1 _).2 Set.univ _)
      isplitl [H0]; · iexact H0
      isplitl [H1]; · iexact H1
      isplitl [HS0]; · iexact HS0
      iintro ⟨H0, H1, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverB V c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold PhiWith1
  iintro ⟨⟨Ha, Hb, Hc, Hd, He, HS0⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS0
  · iexact Hg

end Cert.Kernel.Hand

end
-- ==== Proof.KGcnArrays.lean ====
/-
  The aggregation region's arrays. The region reads five distinct arrays through six windows: the scaled feature
  array is read through two windows, so the region's proof data hold it as two half shares. Here the five whole
  arrays at the full share are dealt into the six windows' holdings at entry, and gathered back at exit, where
  only the output array has changed.
-/
import proofs.«150147_j40415642255629_2_alg».proof.Proof.KGcnData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole array's holding through its window is the holding of the whole buffer. -/
theorem arr_pt (c : Dev nD) (w : Fin 6) (q : PosShare TreeShare)
    (G : Buf (Elt F) ((cfg1.win w).arr.view.loc (c.tc : Thread nD τ))) :
    ((cfg1.win w).arr.view.loc (c.tc : Thread nD τ) ↦[(cfg1.win w).arr.view.set]{q} G : sProp 𝕄)
      = ((cfg1.win w).arr.view.loc (c.tc : Thread nD τ) ↦{q} G) := by
  rw [(arr_whole1 w).set_eq_univ]

/-- The share each window's array is held at. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The five distinct arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v4) ↦{fullShare} V' main_v4) ∗ (((c : Thread nD τ).loc main_v2) ↦{fullShare} V' main_v2) ∗ (((c : Thread nD τ).loc main_v5) ↦{fullShare} V' main_v5) ∗ (((c : Thread nD τ).loc main_v6) ↦{fullShare} V' main_v6)) := by
  unfold Pipeline.arrBufs
  exact bigSep_eq_bigSepL_of_eq [main_arg1, main_v4, main_v2, main_v5, main_v6] (by decide) (by decide) _

/-- The six windows' holdings, one by one. -/
theorem arrays1_eq (c : Dev nD) (G : (w : Fin cfg1.W) → Buf (Elt F) ((cfg1.win w).arr.view.loc (c.tc : Thread nD τ))) :
    ((dat1 V c).arrays G : sProp 𝕄)
      = iprop(((cfg1.win 0).arr.view.loc (c.tc : Thread nD τ) ↦{fullShare} G 0) ∗ ((cfg1.win 1).arr.view.loc (c.tc : Thread nD τ) ↦{fullShare.left} G 1) ∗ ((cfg1.win 2).arr.view.loc (c.tc : Thread nD τ) ↦{fullShare.right} G 2) ∗ ((cfg1.win 3).arr.view.loc (c.tc : Thread nD τ) ↦{fullShare} G 3) ∗ ((cfg1.win 4).arr.view.loc (c.tc : Thread nD τ) ↦{fullShare} G 4) ∗ ((cfg1.win 5).arr.view.loc (c.tc : Thread nD τ) ↦{fullShare} G 5)) := by
  unfold Dat.arrays
  rw [bigSep_W1, arr_pt c 0, arr_pt c 1, arr_pt c 2, arr_pt c 3, arr_pt c 4, arr_pt c 5,
    share1_0, share1_1, share1_2, share1_3, share1_4, share1_5]

/-- At entry: the whole arrays dealt to the windows, the twice-read one split in halves. -/
theorem arrays1_split (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H1, H4, H2, H5, H6⟩
  ihave H4 := (pointsTo_share (PosShare.mem_left_op_right fullShare)).1 $$ H4
  icases H4 with ⟨H4l, H4r⟩
  isplitl [H1]; · iexact H1
  isplitl [H4l]; · iexact H4l
  isplitl [H4r]; · iexact H4r
  isplitl [H2]; · iexact H2
  isplitl [H5]; · iexact H5
  iexact H6

/-- At exit: the windows' holdings gathered into whole arrays, the two halves joined; only the output array differs. -/
theorem arrays1_join (c : Dev nD) (V' : (b : Ref sig .tc) → Buf (Elt F) ((c : Thread nD τ).loc b))
    (h6 : V' main_v6 = (dat1 V c).arrAt 5 cfg1.N) (hne : ∀ b : Ref sig .tc, b ≠ main_v6 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq, hne main_arg1 (by decide), hne main_v4 (by decide), hne main_v2 (by decide),
    hne main_v5 (by decide), h6,
    (dat1 V c).arrAt_in 0 rfl cfg1.N, (dat1 V c).arrAt_in 1 rfl cfg1.N, (dat1 V c).arrAt_in 2 rfl cfg1.N,
    (dat1 V c).arrAt_in 3 rfl cfg1.N, (dat1 V c).arrAt_in 4 rfl cfg1.N]
  iintro ⟨H1, H4l, H4r, H2, H5, H6⟩
  ihave H4 := (pointsTo_share (PosShare.mem_left_op_right fullShare)).2 $$ [H4l H4r]
  · isplitl [H4l]; · iexact H4l
    iexact H4r
  isplitl [H1]; · iexact H1
  isplitl [H4]; · iexact H4
  isplitl [H2]; · iexact H2
  isplitl [H5]; · iexact H5
  iexact H6

end Cert.Kernel.Hand

end
-- ==== Proof.KRun.lean ====
/-
  The whole run of the program: the buffer contents at each boundary between its items (a host stretch, the degree
  kernel's region, a host stretch, the aggregation kernel's region), each region as a segment over the thread state
  "every unscoped buffer at the boundary's contents", and the run itself — every weakly fair execution terminates and
  the final memory holds every unscoped buffer at the last boundary's contents. The aggregation region hands the
  feature array to two of its windows, half of the array's share each.
-/
import proofs.«150147_j40415642255629_2_alg».proof.Proof.KDegData
import proofs.«150147_j40415642255629_2_alg».proof.Proof.KGcnBody
import proofs.«150147_j40415642255629_2_alg».proof.Proof.KGcnArrays
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the feature product). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the degree kernel's region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the normaliser as a column, the scaled features, the bias as a row). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the aggregation kernel's region: the result array at what its write-backs leave, every other buffer as entered. -/
def W4 (c : Dev nD) : Valuation τ sig (Elt F) :=
  Function.update (W3 m ρ c) main_v6 ((dat1 (V3 m ρ) c).arrAt 5 cfg1.N)
abbrev V4 : (c : Dev nD) → (b : Ref sig .tc) → Buf (Elt F) ((c : Thread nD τ).loc b) := fun c b => W4 m ρ c b
theorem V4_out (c : Dev nD) : V4 m ρ c main_v6 = (dat1 (V3 m ρ) c).arrAt 5 cfg1.N := by
  unfold V4 W4; exact Function.update_self ..
theorem V4_ne (c : Dev nD) (b : Ref sig .tc) (hb : b ≠ main_v6) : V4 m ρ c b = V3 m ρ c b := by
  unfold V4 V3 W4; exact Function.update_of_ne (StableHlo.devRef_ne_of_ne hb) ..

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-! ## The aggregation region's arrays in and out of the thread state -/

/-- Entry: every unscoped buffer at the boundary's contents is the region's arrays at their shares and the rest. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0) ∗ Pipeline.unscopedRest (Ix := Unit) (Name := ℕ) (U := UR sig nD τ) (Lvl := ℕ) spec1 c (V3 m ρ c)) := by
  rw [← Pipeline.unscopedBufs_held (Ix := Unit) (Name := ℕ) (U := UR sig nD τ) (Lvl := ℕ) c (W3 m ρ c)]
  rw [Pipeline.PerCore.unscopedBufs_split₀ (fun _ => cfgs) (1 : Fin 2) c (fun w => winFacts₀1.arr_unscoped w) (V3 m ρ c)]
  exact sep_mono (arrays1_split (V3 m ρ) c) .rfl

/-- Exit: the arrays as the region leaves them and the rest are every unscoped buffer at the next boundary's contents. -/
theorem exit1 (c : Dev nD) :
    iprop((dat1 (V3 m ρ) c).arrays ((dat1 (V3 m ρ) c).arrAt · cfg1.N) ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c)]
  rw [Pipeline.PerCore.unscopedBufs_split₀ (fun _ => cfgs) (1 : Fin 2) c (fun w => winFacts₀1.arr_unscoped w) (V4 m ρ c)]
  refine sep_mono (arrays1_join (V3 m ρ) c (V4 m ρ c) (V4_out m ρ c) (fun b hb => V4_ne m ρ c b hb)) (Entails.of_eq ?_)
  unfold Pipeline.unscopedRest
  exact bigSep_congr fun b hb => by
    rw [V4_ne m ρ c b (fun e => (Finset.mem_sdiff.mp hb).2 (Finset.mem_image.mpr ⟨5, Finset.mem_univ _, e ▸ rfl⟩))]

/-! ## The regions as segments -/

set_option backward.isDefEq.respectTransparency.types false in
/-- The degree kernel's region over the thread state. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel's region over the thread state. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c)
        isplitl [Ha]; · iexact Ha
        iexact Hrest
      iexact HY
    unfold Pipeline.Dat.owesAt Pipeline.owesWithin
    icases HO with ⟨%W, -, HO⟩; iexists W; iexact HO

/-! ## The run -/

abbrev segs : List (Pipeline.Seg (pcfgs (F := F)) adm' (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KFrame.lean ====
/-
  The argument arrays at the end of the run: no host stretch writes one, the degree kernel's region only reads the
  adjacency, the aggregation region changes the result array alone — so the last boundary's contents at each
  argument are the launch contents, and the run gives the frame claim.
-/
import proofs.«150147_j40415642255629_2_alg».proof.Proof.KRun
import proofs.«150147_j40415642255629_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the first host stretch does not write holds its launch contents after it. -/
theorem W1_keep (c : Dev nD) (r : Ref sig .tc) (h : r ∉ hostOps0_W) : W1 m ρ c r = W0 m ρ c r :=
  StableHlo.after_of_writes_sub hostOps0 _ hostOps0_writes h
/-- A buffer the second host stretch does not write holds after it what the degree region left. -/
theorem W3_keep (c : Dev nD) (r : Ref sig .tc) (h : r ∉ hostOps1_W) : W3 m ρ c r = W2 m ρ c r :=
  StableHlo.after_of_writes_sub hostOps1 _ hostOps1_writes h
/-- The adjacency, which the degree region stages but never writes, leaves it as it entered. -/
theorem W2_adj (c : Dev nD) : W2 m ρ c main_arg1 = W1 m ρ c main_arg1 :=
  (W2_arr m ρ c 0).trans (((dat0 (V1 m ρ) c).arrAt_in 0 rfl _).trans (A_eq0 (V1 m ρ) c 0))

theorem W4_main_arg0 (c : Dev nD) : W4 m ρ c main_arg0 = m ((c : Thread nD τ).loc main_arg0) :=
  (V4_ne m ρ c main_arg0 (by decide)).trans <| (W3_keep m ρ c main_arg0 (by decide)).trans <|
    (W2_of_ne m ρ c main_arg0 (by decide)).trans <| (W1_keep m ρ c main_arg0 (by decide)).trans rfl
theorem W4_main_arg1 (c : Dev nD) : W4 m ρ c main_arg1 = m ((c : Thread nD τ).loc main_arg1) :=
  (V4_ne m ρ c main_arg1 (by decide)).trans <| (W3_keep m ρ c main_arg1 (by decide)).trans <|
    (W2_adj m ρ c).trans <| (W1_keep m ρ c main_arg1 (by decide)).trans rfl
theorem W4_main_arg2 (c : Dev nD) : W4 m ρ c main_arg2 = m ((c : Thread nD τ).loc main_arg2) :=
  (V4_ne m ρ c main_arg2 (by decide)).trans <| (W3_keep m ρ c main_arg2 (by decide)).trans <|
    (W2_of_ne m ρ c main_arg2 (by decide)).trans <| (W1_keep m ρ c main_arg2 (by decide)).trans rfl
theorem W4_main_arg3 (c : Dev nD) : W4 m ρ c main_arg3 = m ((c : Thread nD τ).loc main_arg3) :=
  (V4_ne m ρ c main_arg3 (by decide)).trans <| (W3_keep m ρ c main_arg3 (by decide)).trans <|
    (W2_of_ne m ρ c main_arg3 (by decide)).trans <| (W1_keep m ρ c main_arg3 (by decide)).trans rfl

/-- The run with its post read at the result and at the four arguments. -/
theorem run_read : θ_run defs (onTc (τ := τ) (main (F := F))) ⟨m, fun _ => 0, ρ⟩ (fun r => ∀ c : Dev nD,
      r.2.mem ((c.tc : Thread nD τ).loc main_v6) = W4 m ρ c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v6 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The frame claim: the program runs to its end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_read m ρ)

end Cert.Kernel.Hand

end
-- ==== Proof.IDegShared.lean ====
import proofs.«150147_j40415642255629_2_alg».proof.Proof.Gen.KernelIdeal.Launch
import proofs.«150147_j40415642255629_2_alg».proof.Proof.Gen.KernelIdeal.Skeleton
import proofs.«150147_j40415642255629_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the degree pass, pipeline 0), at the buffer contents `V` the region is entered with -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array
    is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional's condition: the row-block coordinate is 0 (the accumulator is zeroed). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition: the row-block coordinate is 7 (the output block is stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input window is never idle. -/
theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1x2048 .f32 := (Memref.whole cc0_stg1_0 : Memref sig .tc .vmem S1x2048 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The scratch accumulator: a whole scoped buffer passed beside the windows. -/
abbrev scM0_0 : Memref sig .tc .vmem S1x2048 .f32 := Memref.whole cc0_scratch0
abbrev VS0_0 : View sig .tc .vmem S1x2048 .f32 := scM0_0.view

/-- The scoped buffers of the other pass, which this region never touches: each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region's invariant with the scratch accumulator as a memref owned at some contents, the other pass's
    buffers beside it. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Hand

end
-- ==== Proof.IDegRunA.lean ====
import proofs.«150147_j40415642255629_2_alg».proof.Proof.IDegShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the accumulator is zeroed and the output is not stored: on whole memrefs — the
    input block at `x0`, the idle output buffer at `xi1` (handed back untouched), the accumulator at anything —
    it runs to the continuation with the accumulator's pieces written; the pieces are found by running the
    body's memory operations. -/
noncomputable def kernelRun0_A (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.IDegRunB.lean ====
import proofs.«150147_j40415642255629_2_alg».proof.Proof.IDegShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point (no zeroing, no output store): the input block at `x0`, the idle output buffer
    at `xi1`, the accumulator at what the point before left (`xs0`). -/
noncomputable def kernelRun0_B (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨[], ?_, fun xi1 E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.IDegRunC.lean ====
import proofs.«150147_j40415642255629_2_alg».proof.Proof.IDegShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point of a column of the grid (no zeroing; the output block is stored): the input block
    at `x0`, the output buffer at anything, the accumulator at what the point before left (`xs0`). -/
noncomputable def kernelRun0_C (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.IDegData.lean ====
import proofs.«150147_j40415642255629_2_alg».proof.Proof.IDegRunA
import proofs.«150147_j40415642255629_2_alg».proof.Proof.IDegRunB
import proofs.«150147_j40415642255629_2_alg».proof.Proof.IDegRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output window's buffer and in the accumulator -/

/-- A point that does not store the output: no pieces — a placeholder nothing consults, the window being idle
    and not written back there. -/
def out0_A_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) : Vec F S1x2048 .f32 :=
  VO0_1.read (Elt F) (VO0_1.writes (Elt F) VO0_1.junk (kernelRun0_A c i arg2 harg2 arg3 harg3 arg4 harg4 hc0 hc1 x0).1)

/-- The pieces the zeroing case writes into the accumulator tile it. -/
theorem scover0_A_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) (y : S1x2048.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x2048.size (by sl_kernel_rfl) y

/-- What the zeroing case leaves in the accumulator: its pieces read back. -/
def sout0_A_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i)
    (x0 : Vec F S2048x2048 .f32) : Vec F S1x2048 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) : Vec F S1x2048 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) (y : S1x2048.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x2048.size (by sl_kernel_rfl) y

def sout0_B_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i)
    (x0 : Vec F S2048x2048 .f32) (xs0 : Vec F S1x2048 .f32) : Vec F S1x2048 .f32 :=
  VS0_0.read (Elt F) (VS0_0.writes (Elt F) VS0_0.junk (kernelRun0_B c i arg2 harg2 arg3 harg3 arg4 harg4 hc0 hc1 x0 xs0).2.1)

/-- The storing case's one store tiles the output block. -/
theorem cover0_C_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) (y : S1x2048.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x2048.size (by sl_kernel_rfl) y

/-- What the storing case leaves in the output window's buffer. -/
def out0_C_1 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) : Vec F S1x2048 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) (y : S1x2048.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x2048.size (by sl_kernel_rfl) y

def sout0_C_0 (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i)
    (x0 : Vec F S2048x2048 .f32) (xs0 : Vec F S1x2048 .f32) : Vec F S1x2048 .f32 :=
  VS0_0.read (Elt F) (VS0_0.writes (Elt F) VS0_0.junk (kernelRun0_C c i arg2 harg2 arg3 harg3 arg4 harg4 hc0 hc1 x0 xs0).2.1)

/-! ## What the output window's buffer and the accumulator hold after each point -/

/-- The accumulation: (the output window's staging contents, the accumulator's contents) after the body at
    position `n`. At a point ≡ 0 (mod 8) the accumulator restarts (nothing of the point before is read);
    elsewhere the case runs over what the point before left in the accumulator. -/
def outsAt0 (c : Dev nD) : (n : ℕ) → n < cfg0.N → Vec F S1x2048 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a point ≡ 0 (mod 8). -/
theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a middle point: over what the point before left in the accumulator. -/
theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point ≡ 7 (mod 8): over what the point before left in the accumulator. -/
theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's entry invariant (the accumulator
    at anything); afterwards the accumulator at what the point before left, the other pass's buffers at some
    contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The proof data of the region on core `c`: the arrays as the region finds them (`V`); after the body at point
    `t` the input's buffer at its block and the output's at `outsAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the
    accumulator at what the point before left (at anything at the first point) and takes it back at this point's
    contents; the other pass's buffers and the generator register ride along. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
      · rw [PhiS0_castSucc V c t, PhiS0_pos V c _ _ hz]
        iintro ⟨⟨⟨HS0, Hoth⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _)
            iexact Hoth
          iexact Hg
        isplitl [Ho]; · iexact Ho
        isplitl [H0]; · iexact H0
        iexists _; iexact H1
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _)
            iexact Hoth
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _)
            iexact Hoth
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.IGcnShared.lean ====
/-
  The aggregation kernel (the second pallas_call: an accumulator over the sixteen row blocks of the adjacency,
  zeroed at the first, flushed through the epilogue at the last), at the contents `V` its region is entered from:
  each window's block at a grid point, the two branch conditions in closed form over the grid, where the output
  window is idle, the staging and scratch memrefs, and the region's invariant with the accumulator named.
-/
import proofs.«150147_j40415642255629_2_alg».proof.Proof.Gen.KernelIdeal.Launch
import proofs.«150147_j40415642255629_2_alg».proof.Proof.Gen.KernelIdeal.Skeleton
import proofs.«150147_j40415642255629_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional: the reduction coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional: the reduction coordinate is the last. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional fails the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S2048x64 .f32 := (Memref.whole cc1_stg5_0 : Memref sig .tc .vmem S2048x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S2048x64 .f32 := Memref.whole cc1_scratch0
abbrev VS1_0 : View sig .tc .vmem S2048x64 .f32 := scM1_0.view

/-- The region's invariant with the accumulator's part `S`: the other pallas_call's scoped buffers (never touched here),
    each whole at some contents, then `S`, beside the generator register at some state. -/
def PhiWith1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S) ∗ (∃ r, prngReg c r))

/-- Before the first point the accumulator is at anything. -/
theorem PhiA1_eq (c : Dev nD) :
    (Pipeline.ΦA spec1 c : sProp 𝕄) = PhiWith1 c (iprop(∃ d, owns (c : Thread nD τ) scM1_0 fullShare d)) := by
  unfold Pipeline.ΦA PhiWith1; rw [scopedRest1_eq]; simp only [scM1_0, owns_whole]; try rfl

end Cert.KernelIdeal.Hand

end
-- ==== Proof.IGcnRunA.lean ====
/-
  The aggregation kernel's body at the first row block of a column of the grid: the accumulator, found at
  anything, is zeroed and then receives the block's product; nothing is stored into the output.
-/
import proofs.«150147_j40415642255629_2_alg».proof.Proof.IGcnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case, WITH the proof that from the two staged operand
    blocks held whole and the accumulator held at anything the body runs to its end, handing the operand blocks back
    as they were and the accumulator with those pieces written. -/
noncomputable def kernelRun1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x64 .f32) (harg8 : arg8.IsWhole) (hc0 : cond1_0 i) (hc1 : ¬cond1_1 i)
    (x0 : Vec F S1024x2048 .f32) (x1 : Vec F S1024x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.IGcnRunB.lean ====
/-
  The aggregation kernel's body at a row block that is neither the first nor the last of its column of the grid:
  the accumulator, found at what the block before left, receives the block's product; nothing is stored into the output.
-/
import proofs.«150147_j40415642255629_2_alg».proof.Proof.IGcnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case, WITH the proof that from the two staged operand
    blocks and the accumulator held whole the body runs to its end, handing the operand blocks back as they were and
    the accumulator with those pieces written. -/
noncomputable def kernelRun1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : ¬cond1_1 i)
    (x0 : Vec F S1024x2048 .f32) (x1 : Vec F S1024x64 .f32) (xs0 : Vec F S2048x64 .f32) :
    { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg8 fullShare xs0
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.IGcnRunC.lean ====
/-
  The aggregation kernel's body at the last row block of a column of the grid: the accumulator receives the block's
  product, and the epilogue (scale by the column's normaliser, add the self term and the bias, clamp at zero) is
  stored into the output block.
-/
import proofs.«150147_j40415642255629_2_alg».proof.Proof.IGcnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block and in the accumulator in this case, WITH the proof that
    from the five staged operand blocks and the accumulator held whole, the output's buffer at anything, the body runs
    to its end, handing the operand blocks back as they were and the two written buffers with those pieces. -/
noncomputable def kernelRun1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x64 .f32) (harg8 : arg8.IsWhole) (hc0 : ¬cond1_0 i) (hc1 : cond1_1 i)
    (x0 : Vec F S1024x2048 .f32) (x1 : Vec F S1024x64 .f32) (x2 : Vec F S2048x64 .f32) (x3 : Vec F S2048x1 .f32) (x4 : Vec F S1x64 .f32) (xs0 : Vec F S2048x64 .f32) :
    Σ' (L5 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.IGcnData.lean ====
/-
  The aggregation kernel's region: what the accumulator and the output block hold after each grid point (the case
  the point is in, run on the point's blocks, over what the point before left in the accumulator), the region's
  invariant (the accumulator named from the second point on), the proof data at the entry contents `V`, and the body
  obligation at every point.
-/
import proofs.«150147_j40415642255629_2_alg».proof.Proof.IGcnRunA
import proofs.«150147_j40415642255629_2_alg».proof.Proof.IGcnRunB
import proofs.«150147_j40415642255629_2_alg».proof.Proof.IGcnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The first row block of a column: the run on the point's adjacency and feature blocks. -/
abbrev runA_at (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t)
/-- A middle row block, over what the block before left in the accumulator. -/
abbrev runB_at (c : Dev nD) (t : Fin cfg1.N) (h0 : ¬t.val % 16 = 0) (h1 : ¬t.val % 16 = 15) (xs0 : Vec F S2048x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) xs0
/-- The last row block, over what the block before left in the accumulator. -/
abbrev runC_at (c : Dev nD) (t : Fin cfg1.N) (h0 : ¬t.val % 16 = 0) (h1 : t.val % 16 = 15) (xs0 : Vec F S2048x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0

theorem scoverA (c : Dev nD) (t : Fin cfg1.N) (h0 : t.val % 16 = 0) (h1 : ¬t.val % 16 = 15) (y : S2048x64.Idx) :
    ∃ pc ∈ (runA_at V c t h0 h1).1, y ∈ pc.1.set :=
  View.cover_of_tiledL (runA_at V c t h0 h1).1 S2048x64.size (by sl_kernel_rfl) y
theorem scoverB (c : Dev nD) (t : Fin cfg1.N) (h0 : ¬t.val % 16 = 0) (h1 : ¬t.val % 16 = 15) (xs0 : Vec F S2048x64 .f32) (y : S2048x64.Idx) :
    ∃ pc ∈ (runB_at V c t h0 h1 xs0).1, y ∈ pc.1.set :=
  View.cover_of_tiledL (runB_at V c t h0 h1 xs0).1 S2048x64.size (by sl_kernel_rfl) y
theorem scoverC (c : Dev nD) (t : Fin cfg1.N) (h0 : ¬t.val % 16 = 0) (h1 : t.val % 16 = 15) (xs0 : Vec F S2048x64 .f32) (y : S2048x64.Idx) :
    ∃ pc ∈ (runC_at V c t h0 h1 xs0).2.1, y ∈ pc.1.set :=
  View.cover_of_tiledL (runC_at V c t h0 h1 xs0).2.1 S2048x64.size (by sl_kernel_rfl) y
theorem coverC (c : Dev nD) (t : Fin cfg1.N) (h0 : ¬t.val % 16 = 0) (h1 : t.val % 16 = 15) (xs0 : Vec F S2048x64 .f32) (y : S2048x64.Idx) :
    ∃ pc ∈ (runC_at V c t h0 h1 xs0).1, y ∈ pc.1.set :=
  View.cover_of_tiledL (runC_at V c t h0 h1 xs0).1 S2048x64.size (by sl_kernel_rfl) y

/-- What each case leaves in the accumulator: its pieces read back. -/
def accA (c : Dev nD) (t : Fin cfg1.N) (h0 : t.val % 16 = 0) (h1 : ¬t.val % 16 = 15) : Vec F S2048x64 .f32 :=
  VS1_0.read (Elt F) (VS1_0.writes (Elt F) VS1_0.junk (runA_at V c t h0 h1).1)
def accB (c : Dev nD) (t : Fin cfg1.N) (h0 : ¬t.val % 16 = 0) (h1 : ¬t.val % 16 = 15) (xs0 : Vec F S2048x64 .f32) : Vec F S2048x64 .f32 :=
  VS1_0.read (Elt F) (VS1_0.writes (Elt F) VS1_0.junk (runB_at V c t h0 h1 xs0).1)
def accC (c : Dev nD) (t : Fin cfg1.N) (h0 : ¬t.val % 16 = 0) (h1 : t.val % 16 = 15) (xs0 : Vec F S2048x64 .f32) : Vec F S2048x64 .f32 :=
  VS1_0.read (Elt F) (VS1_0.writes (Elt F) VS1_0.junk (runC_at V c t h0 h1 xs0).2.1)
/-- What the last case leaves in the output block. -/
def outC (c : Dev nD) (t : Fin cfg1.N) (h0 : ¬t.val % 16 = 0) (h1 : t.val % 16 = 15) (xs0 : Vec F S2048x64 .f32) : Vec F S2048x64 .f32 :=
  VO1_5.read (Elt F) (VO1_5.writes (Elt F) VO1_5.junk (runC_at V c t h0 h1 xs0).1)
/-- A placeholder for the output block where the body stores nothing into it (never read: the window is idle there). -/
def idleOut : Vec F S2048x64 .f32 := VO1_5.read (Elt F) VO1_5.junk

/-! ## What the buffers hold after each point -/

/-- The output block's staging contents and the accumulator's contents after the body at position `n`. -/
def outsAt1 (c : Dev nD) : (n : ℕ) → n < cfg1.N → Vec F S2048x64 .f32 × Vec F S2048x64 .f32
  | 0, hn => (idleOut, accA V c ⟨0, hn⟩ (Nat.zero_mod _) (by show ¬(0 : ℕ) % 16 = 15; decide))
  | n + 1, hn =>
    if h0 : (n + 1) % 16 = 0 then
      if h1 : (n + 1) % 16 = 15 then
        False.elim (by omega)
      else
        (idleOut, accA V c ⟨n + 1, hn⟩ h0 h1)
    else
      if h1 : (n + 1) % 16 = 15 then
        (outC V c ⟨n + 1, hn⟩ h0 h1 (outsAt1 c n (Nat.lt_of_succ_lt hn)).2, accC V c ⟨n + 1, hn⟩ h0 h1 (outsAt1 c n (Nat.lt_of_succ_lt hn)).2)
      else
        (idleOut, accB V c ⟨n + 1, hn⟩ h0 h1 (outsAt1 c n (Nat.lt_of_succ_lt hn)).2)

theorem outsAt1_A (c : Dev nD) (t : Fin cfg1.N) (h0 : t.val % 16 = 0) (h1 : ¬t.val % 16 = 15) :
    outsAt1 V c t.val t.isLt = (idleOut, accA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut, accB V c t h0 h1 (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC V c t h0 h1 (outsAt1 V c (t.val - 1) (Nat.lt_of_le_of_lt (Nat.sub_le _ _) t.isLt)).2, accC V c t h0 h1 (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region invariant before position `n`: at the start the accumulator at anything; afterwards at what the
    point before left in it. -/
def PhiS1 (c : Dev nD) : (n : ℕ) → n ≤ cfg1.N → sProp 𝕄
  | 0, _ => Pipeline.ΦA spec1 c
  | n + 1, hn => PhiWith1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith1 c (owns (c : Thread nD τ) scM1_0 fullShare ((outsAt1 V c n hn).2)) := rfl
theorem PhiS1_pos (c : Dev nD) (n : ℕ) (h : n ≤ cfg1.N) (hz : n ≠ 0) :
    PhiS1 V c n h = PhiWith1 c (owns (c : Thread nD τ) scM1_0 fullShare ((outsAt1 V c (n - 1) (by omega)).2)) := by
  cases n with
  | zero => exact absurd rfl hz
  | succ n => rfl

/-! ## The proof data -/

/-- The region's proof data on core `c`: the arrays as the region finds them; after the body each input's buffer at
    its block, the output's at `outsAt1`; the invariant; nothing owed; the feature array, staged through two
    windows, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end Cert.KernelIdeal.Hand

end
-- ==== Proof.IGcnBody.lean ====
/-
  The aggregation kernel's body obligation: at every grid point the staged blocks are the arrays' blocks, the closed
  forms say which of the three cases the point is in, that case's run applies, and the invariant takes the accumulator
  back at the point's contents.
-/
import proofs.«150147_j40415642255629_2_alg».proof.Proof.IGcnData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold accA; (try dsimp only)
    by_cases hz : t.val = 0
    · rw [PhiS1_castSucc V c t, PhiS1_zero V c _ _ hz, PhiA1_eq]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runA_at V c t h0 h1).2 Set.univ _)
      isplitl [H0]; · iexact H0
      isplitl [H1]; · iexact H1
      isplitl [HS0]; · iexact HS0
      iintro ⟨H0, H1, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverA V c t h0 h1)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runA_at V c t h0 h1).2 Set.univ _)
      isplitl [H0]; · iexact H0
      isplitl [H1]; · iexact H1
      isplitl [HS0]; · iexists _; iexact HS0
      iintro ⟨H0, H1, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverA V c t h0 h1)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC accC; (try dsimp only)
      rw [PhiS1_castSucc V c t, PhiS1_pos V c _ _ hz]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runC_at V c t h0 h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverC V c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t h0 h1 _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold accB; (try dsimp only)
      rw [PhiS1_castSucc V c t, PhiS1_pos V c _ _ hz]; unfold PhiWith1
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩⟩
      iapply ((runB_at V c t h0 h1 _).2 Set.univ _)
      isplitl [H0]; · iexact H0
      isplitl [H1]; · iexact H1
      isplitl [HS0]; · iexact HS0
      iintro ⟨H0, H1, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scoverB V c t h0 h1 _)
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold PhiWith1
  iintro ⟨⟨Ha, Hb, Hc, Hd, He, HS0⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS0
  · iexact Hg

end Cert.KernelIdeal.Hand

end
-- ==== Proof.IGcnArrays.lean ====
/-
  The aggregation region's arrays. The region reads five distinct arrays through six windows: the scaled feature
  array is read through two windows, so the region's proof data hold it as two half shares. Here the five whole
  arrays at the full share are dealt into the six windows' holdings at entry, and gathered back at exit, where
  only the output array has changed.
-/
import proofs.«150147_j40415642255629_2_alg».proof.Proof.IGcnData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole array's holding through its window is the holding of the whole buffer. -/
theorem arr_pt (c : Dev nD) (w : Fin 6) (q : PosShare TreeShare)
    (G : Buf (Elt F) ((cfg1.win w).arr.view.loc (c.tc : Thread nD τ))) :
    ((cfg1.win w).arr.view.loc (c.tc : Thread nD τ) ↦[(cfg1.win w).arr.view.set]{q} G : sProp 𝕄)
      = ((cfg1.win w).arr.view.loc (c.tc : Thread nD τ) ↦{q} G) := by
  rw [(arr_whole1 w).set_eq_univ]

/-- The share each window's array is held at. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The five distinct arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v4) ↦{fullShare} V' main_v4) ∗ (((c : Thread nD τ).loc main_v2) ↦{fullShare} V' main_v2) ∗ (((c : Thread nD τ).loc main_v5) ↦{fullShare} V' main_v5) ∗ (((c : Thread nD τ).loc main_v6) ↦{fullShare} V' main_v6)) := by
  unfold Pipeline.arrBufs
  exact bigSep_eq_bigSepL_of_eq [main_arg1, main_v4, main_v2, main_v5, main_v6] (by decide) (by decide) _

/-- The six windows' holdings, one by one. -/
theorem arrays1_eq (c : Dev nD) (G : (w : Fin cfg1.W) → Buf (Elt F) ((cfg1.win w).arr.view.loc (c.tc : Thread nD τ))) :
    ((dat1 V c).arrays G : sProp 𝕄)
      = iprop(((cfg1.win 0).arr.view.loc (c.tc : Thread nD τ) ↦{fullShare} G 0) ∗ ((cfg1.win 1).arr.view.loc (c.tc : Thread nD τ) ↦{fullShare.left} G 1) ∗ ((cfg1.win 2).arr.view.loc (c.tc : Thread nD τ) ↦{fullShare.right} G 2) ∗ ((cfg1.win 3).arr.view.loc (c.tc : Thread nD τ) ↦{fullShare} G 3) ∗ ((cfg1.win 4).arr.view.loc (c.tc : Thread nD τ) ↦{fullShare} G 4) ∗ ((cfg1.win 5).arr.view.loc (c.tc : Thread nD τ) ↦{fullShare} G 5)) := by
  unfold Dat.arrays
  rw [bigSep_W1, arr_pt c 0, arr_pt c 1, arr_pt c 2, arr_pt c 3, arr_pt c 4, arr_pt c 5,
    share1_0, share1_1, share1_2, share1_3, share1_4, share1_5]

/-- At entry: the whole arrays dealt to the windows, the twice-read one split in halves. -/
theorem arrays1_split (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H1, H4, H2, H5, H6⟩
  ihave H4 := (pointsTo_share (PosShare.mem_left_op_right fullShare)).1 $$ H4
  icases H4 with ⟨H4l, H4r⟩
  isplitl [H1]; · iexact H1
  isplitl [H4l]; · iexact H4l
  isplitl [H4r]; · iexact H4r
  isplitl [H2]; · iexact H2
  isplitl [H5]; · iexact H5
  iexact H6

/-- At exit: the windows' holdings gathered into whole arrays, the two halves joined; only the output array differs. -/
theorem arrays1_join (c : Dev nD) (V' : (b : Ref sig .tc) → Buf (Elt F) ((c : Thread nD τ).loc b))
    (h6 : V' main_v6 = (dat1 V c).arrAt 5 cfg1.N) (hne : ∀ b : Ref sig .tc, b ≠ main_v6 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq, hne main_arg1 (by decide), hne main_v4 (by decide), hne main_v2 (by decide),
    hne main_v5 (by decide), h6,
    (dat1 V c).arrAt_in 0 rfl cfg1.N, (dat1 V c).arrAt_in 1 rfl cfg1.N, (dat1 V c).arrAt_in 2 rfl cfg1.N,
    (dat1 V c).arrAt_in 3 rfl cfg1.N, (dat1 V c).arrAt_in 4 rfl cfg1.N]
  iintro ⟨H1, H4l, H4r, H2, H5, H6⟩
  ihave H4 := (pointsTo_share (PosShare.mem_left_op_right fullShare)).2 $$ [H4l H4r]
  · isplitl [H4l]; · iexact H4l
    iexact H4r
  isplitl [H1]; · iexact H1
  isplitl [H4]; · iexact H4
  isplitl [H2]; · iexact H2
  isplitl [H5]; · iexact H5
  iexact H6

end Cert.KernelIdeal.Hand

end
-- ==== Proof.IRun.lean ====
/-
  The whole run of the program: the buffer contents at each boundary between its items (a host stretch, the degree
  kernel's region, a host stretch, the aggregation kernel's region), each region as a segment over the thread state
  "every unscoped buffer at the boundary's contents", and the run itself — every weakly fair execution terminates and
  the final memory holds every unscoped buffer at the last boundary's contents. The aggregation region hands the
  feature array to two of its windows, half of the array's share each.
-/
import proofs.«150147_j40415642255629_2_alg».proof.Proof.IDegData
import proofs.«150147_j40415642255629_2_alg».proof.Proof.IGcnBody
import proofs.«150147_j40415642255629_2_alg».proof.Proof.IGcnArrays
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the feature product). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the degree kernel's region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the normaliser as a column, the scaled features, the bias as a row). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the aggregation kernel's region: the result array at what its write-backs leave, every other buffer as entered. -/
def W4 (c : Dev nD) : Valuation τ sig (Elt F) :=
  Function.update (W3 m ρ c) main_v6 ((dat1 (V3 m ρ) c).arrAt 5 cfg1.N)
abbrev V4 : (c : Dev nD) → (b : Ref sig .tc) → Buf (Elt F) ((c : Thread nD τ).loc b) := fun c b => W4 m ρ c b
theorem V4_out (c : Dev nD) : V4 m ρ c main_v6 = (dat1 (V3 m ρ) c).arrAt 5 cfg1.N := by
  unfold V4 W4; exact Function.update_self ..
theorem V4_ne (c : Dev nD) (b : Ref sig .tc) (hb : b ≠ main_v6) : V4 m ρ c b = V3 m ρ c b := by
  unfold V4 V3 W4; exact Function.update_of_ne (StableHlo.devRef_ne_of_ne hb) ..

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-! ## The aggregation region's arrays in and out of the thread state -/

/-- Entry: every unscoped buffer at the boundary's contents is the region's arrays at their shares and the rest. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0) ∗ Pipeline.unscopedRest (Ix := Unit) (Name := ℕ) (U := UR sig nD τ) (Lvl := ℕ) spec1 c (V3 m ρ c)) := by
  rw [← Pipeline.unscopedBufs_held (Ix := Unit) (Name := ℕ) (U := UR sig nD τ) (Lvl := ℕ) c (W3 m ρ c)]
  rw [Pipeline.PerCore.unscopedBufs_split₀ (fun _ => cfgs) (1 : Fin 2) c (fun w => winFacts₀1.arr_unscoped w) (V3 m ρ c)]
  exact sep_mono (arrays1_split (V3 m ρ) c) .rfl

/-- Exit: the arrays as the region leaves them and the rest are every unscoped buffer at the next boundary's contents. -/
theorem exit1 (c : Dev nD) :
    iprop((dat1 (V3 m ρ) c).arrays ((dat1 (V3 m ρ) c).arrAt · cfg1.N) ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c)]
  rw [Pipeline.PerCore.unscopedBufs_split₀ (fun _ => cfgs) (1 : Fin 2) c (fun w => winFacts₀1.arr_unscoped w) (V4 m ρ c)]
  refine sep_mono (arrays1_join (V3 m ρ) c (V4 m ρ c) (V4_out m ρ c) (fun b hb => V4_ne m ρ c b hb)) (Entails.of_eq ?_)
  unfold Pipeline.unscopedRest
  exact bigSep_congr fun b hb => by
    rw [V4_ne m ρ c b (fun e => (Finset.mem_sdiff.mp hb).2 (Finset.mem_image.mpr ⟨5, Finset.mem_univ _, e ▸ rfl⟩))]

/-! ## The regions as segments -/

set_option backward.isDefEq.respectTransparency.types false in
/-- The degree kernel's region over the thread state. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation kernel's region over the thread state. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c)
        isplitl [Ha]; · iexact Ha
        iexact Hrest
      iexact HY
    unfold Pipeline.Dat.owesAt Pipeline.owesWithin
    icases HO with ⟨%W, -, HO⟩; iexists W; iexact HO

/-! ## The run -/

abbrev segs : List (Pipeline.Seg (pcfgs (F := F)) adm' (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.Spec.lean ====
import proofs.«150147_j40415642255629_2_alg».proof.KernelIdeal
import Idealize.ShloMosaic.PureOps.Ideal
import Idealize.ShloMosaic.PureOps.Ideal.Laws
import Idealize.ShloMosaic.Lib.ValueIdx

/-!
  The graph-convolution layer, index by index, over the extended reals.

  With `s n = ∑ r, adj (r, n)` the column sums of the adjacency matrix and
  `d n = (s n + 1)^(-1/2)` where `s n + 1 > 0` (else `0`), the layer is
  `out (j, f) = max (d j * ((∑ k, adj (k, j) * z (k, f)) + z (j, f)) + b f) 0`,
  `z (r, f) = d r * ∑ k, x (r, k) * W (k, f)`.
-/

noncomputable section

open scoped BigOperators

namespace Cert.Spec

open Idealize.ShloMosaic Idealize.ShloMosaic.ValueIdx
open Cert.KernelIdeal (S16384x16384 S16384x64 S64x64 S64)

/-- The column sum of the adjacency matrix at column `n`. -/
def colsum (adj : FVec Ideal S16384x16384 .f32) (n : Fin 16384) : EReal :=
  ∑ r : Fin 16384, adj (ix2 r n)

/-- The normalisation of one degree: `(s + 1)^(-1/2)` where `s + 1 > 0`, else `0`. -/
def dinvOf (s : EReal) : EReal :=
  Scalar.select (Ideal.cmp .ogt (s + Ideal.ofBits .f32 0x3F800000#32) (Ideal.ofBits .f32 0x00000000#32))
    (Ideal.rsqrt (s + Ideal.ofBits .f32 0x3F800000#32)) (Ideal.ofBits .f32 0x00000000#32)

/-- The normalisation of node `n`. -/
def dinv (adj : FVec Ideal S16384x16384 .f32) (n : Fin 16384) : EReal :=
  dinvOf (colsum adj n)

/-- The feature transform `x W` at `(r, f)`. -/
def xw (x : FVec Ideal S16384x64 .f32) (W : FVec Ideal S64x64 .f32) (r : Fin 16384) (f : Fin 64) : EReal :=
  ∑ k : Fin 64, x (ix2 r k) * W (ix2 k f)

/-- The scaled features `z = d · (x W)` at `(r, f)`. -/
def z (x : FVec Ideal S16384x64 .f32) (adj : FVec Ideal S16384x16384 .f32) (W : FVec Ideal S64x64 .f32)
    (r : Fin 16384) (f : Fin 64) : EReal :=
  dinv adj r * xw x W r f

/-- The last step at one element: `max (d * (a + zj) + bb) 0`. -/
def fin (d a zj bb : EReal) : EReal :=
  max (d * (a + zj) + bb) (Ideal.ofBits .f32 0x00000000#32)

/-- The layer's output at `(j, f)`. -/
def out (x : FVec Ideal S16384x64 .f32) (adj : FVec Ideal S16384x16384 .f32) (W : FVec Ideal S64x64 .f32)
    (b : FVec Ideal S64 .f32) (j : Fin 16384) (f : Fin 64) : EReal :=
  fin (dinv adj j) (∑ k : Fin 16384, adj (ix2 k j) * z x adj W k f) (z x adj W j f) (b (ix1 f))

/-- The layer's output as an array. -/
def outArr (x : FVec Ideal S16384x64 .f32) (adj : FVec Ideal S16384x16384 .f32) (W : FVec Ideal S64x64 .f32)
    (b : FVec Ideal S64 .f32) : FVec Ideal S16384x64 .f32 :=
  fun i => out x adj W b (i 0) (i 1)

theorem outArr_apply (x : FVec Ideal S16384x64 .f32) (adj : FVec Ideal S16384x16384 .f32) (W : FVec Ideal S64x64 .f32)
    (b : FVec Ideal S64 .f32) (j : Fin 16384) (f : Fin 64) : outArr x adj W b (ix2 j f) = out x adj W b j f := rfl

/-- The two literals, as extended reals. -/
theorem one_eq : Ideal.ofBits .f32 0x3F800000#32 = 1 := by
  simp [Ideal.ofBits, Ideal.ieee, -EReal.coe_mul]; norm_num
theorem zero_eq : Ideal.ofBits .f32 0x00000000#32 = 0 := Ideal.ofBits_zero_f32

/-- `dinvOf` in plain words. -/
theorem dinvOf_eq (s : EReal) : dinvOf s = if 0 < s + 1 then Ideal.rsqrt (s + 1) else 0 := by
  unfold dinvOf
  rw [one_eq, zero_eq]
  unfold Scalar.select Ideal.cmp
  by_cases h : (0 : EReal) < s + 1
  · simp [h]
  · simp [h]

/-- `fin` in plain words. -/
theorem fin_eq (d a zj bb : EReal) : fin d a zj bb = max (d * (a + zj) + bb) 0 := by
  unfold fin; rw [zero_eq]

/-- The elementwise reading of the kernel's vector form of `dinvOf`. -/
theorem dinvOf_vec {s : Shape} (v : FVec Ideal s .f32) (i : s.Idx) :
    select (cmpf .ogt (addf v (broadcast s (Scalar.ofBits .f32 0x3F800000#32)))
        (broadcast s (Scalar.ofBits .f32 0x00000000#32)))
      (rsqrt (addf v (broadcast s (Scalar.ofBits .f32 0x3F800000#32))))
      (broadcast s (Scalar.ofBits .f32 0x00000000#32)) i = dinvOf (v i) := rfl

end Cert.Spec

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.HostGlue.lean ====
/-
  The kernel program's host operations read at an index, on the extended reals.

  The feature transform x · W is a plain matrix product; the row of inverse square roots [1, 16384] is recast as the
  column [16384, 1] (entry (r, 0) is entry (0, r)), spread over the 64 features (entry (r, f) is entry (r, 0)) and
  multiplied into the transformed features entrywise; the bias [64] is recast as the row [1, 64].
-/
import proofs.«150147_j40415642255629_2_alg».proof.Proof.Gen.KernelIdeal.Skeleton
import proofs.«150147_j40415642255629_2_alg».proof.Proof.LibPlainDot
import proofs.«150147_j40415642255629_2_alg».proof.Proof.LibIndexRead
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx
open scoped BigOperators

/-- The host's feature transform at (r, f): the sum over k of l (r, k) · w (k, f). -/
theorem host_dot_apply (l : FVec Ideal S16384x64 .f32) (w : FVec Ideal S64x64 .f32) (r : Fin 16384) (f : Fin 64) :
    Host.dotGeneral (F := Ideal) dot_S16384x64_S64x64_S16384x64_1_0_0_1_n_n none l w (ix2 r f)
      = ∑ k : Fin 64, l (ix2 r k) * w (ix2 k f) :=
  PlainDot.dotGeneral_plain _ rfl none l w r f

/-- A [1, a] row recast as the [a, 1] column: entry (r, u) is entry (0, r), whatever the unit coordinate. -/
theorem shapeCast_1a_a1_apply {α : Type} {a : ℕ} (x : (⟨2, ![1, a]⟩ : Shape).Idx → α)
    (h : (⟨2, ![1, a]⟩ : Shape).ShapeCasts ⟨2, ![a, 1]⟩) (r : Fin a) (u : Fin 1) :
    shapeCast ⟨2, ![a, 1]⟩ x h (ix2 r u) = x (ix2 (0 : Fin 1) r) :=
  shapeCast_apply x h _ _ (by
    have hu : u.val = 0 := by omega
    rw [Shape.rowMajor_val_two, Shape.rowMajor_val_two]
    show 0 * a + r.val = r.val * 1 + u.val
    rw [hu, Nat.zero_mul, Nat.zero_add, Nat.mul_one, Nat.add_zero])

/-- The row of scales [1, 16384] recast as a column, at (r, 0): the row's entry (0, r). -/
theorem host_reshape_col_apply {α : Type} (v : S1x16384.Idx → α) (r : Fin 16384) :
    shapeCast S16384x1 v shapeCasts_S1x16384_S16384x1 (ix2 r (0 : Fin 1)) = v (ix2 (0 : Fin 1) r) :=
  shapeCast_1a_a1_apply v _ r 0

/-- The column spread over the features, at (r, f): the column's entry (r, 0). -/
theorem host_bcast_apply {α : Type} (v : S16384x1.Idx → α) (r : Fin 16384) (f : Fin 64) :
    broadcastInDim S16384x64 ![0, 1] bcast_S16384x1_S16384x64_0_1 v (ix2 r f) = v (ix2 r (0 : Fin 1)) :=
  RowRead.broadcastInDim_a1_ab_apply _ _ rfl v r f

/-- The entrywise product at (r, f). -/
theorem host_mulf_apply (a b : FVec Ideal S16384x64 .f32) (r : Fin 16384) (f : Fin 64) :
    mulf a b (ix2 r f) = a (ix2 r f) * b (ix2 r f) := rfl

/-- The bias [64] recast as the row [1, 64], at (0, f): the bias at f. -/
theorem host_reshape_row_apply {α : Type} (v : S64.Idx → α) (f : Fin 64) :
    shapeCast S1x64 v shapeCasts_S64_S1x64 (ix2 (0 : Fin 1) f) = v (ix1 f) :=
  shapeCast_a_1a_apply v _ 0 f

end Cert.KernelIdeal.Pay

end
-- ==== Proof.IGlue.lean ====
/-
  The host stretches of the program at the extended reals, read at an index: the feature product, the normaliser
  turned from a row into a column, the features scaled row by row, the bias as a row.
-/
import proofs.«150147_j40415642255629_2_alg».proof.Proof.IRun
import proofs.«150147_j40415642255629_2_alg».proof.Proof.Spec
import proofs.«150147_j40415642255629_2_alg».proof.Proof.HostGlue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (m : (ℓ : Loc nD τ sig) → Buf (Elt Ideal) ℓ) (ρ : Dev nD → PrngReg)

/-! ## The intermediate arrays, each at its shape -/

/-- The feature product, after the first host stretch. -/
abbrev aV0 (c : Dev nD) : FVec Ideal S16384x64 .f32 := W1 m ρ c main_v0
/-- The normaliser as a row, after the degree region. -/
abbrev aV1 (c : Dev nD) : FVec Ideal S1x16384 .f32 := W2 m ρ c main_v1
/-- The normaliser as a column, after the second host stretch. -/
abbrev aV2 (c : Dev nD) : FVec Ideal S16384x1 .f32 := W3 m ρ c main_v2
/-- The scaled features, after the second host stretch. -/
abbrev aV4 (c : Dev nD) : FVec Ideal S16384x64 .f32 := W3 m ρ c main_v4
/-- The bias as a row, after the second host stretch. -/
abbrev aV5 (c : Dev nD) : FVec Ideal S1x64 .f32 := W3 m ρ c main_v5
/-- The result, after the aggregation region. -/
abbrev aV6 (c : Dev nD) : FVec Ideal S16384x64 .f32 := W4 m ρ c main_v6

/-- The feature product after the first host stretch. -/
theorem W1_v0_eq (c : Dev nD) : aV0 m ρ c
    = Host.dotGeneral (F := Ideal) (φ₁ := .f32) (φ₂ := .f32) dot_S16384x64_S64x64_S16384x64_1_0_0_1_n_n none (m ((c : Thread nD τ).loc main_arg0) : FVec Ideal S16384x64 .f32) (m ((c : Thread nD τ).loc main_arg2) : FVec Ideal S64x64 .f32) := by
  dsimp only [aV0, W1, W0, hostOps0]; after_results

theorem W1_v0_apply (c : Dev nD) (r : Fin 16384) (f : Fin 64) :
    aV0 m ρ c (ix2 r f) = Cert.Spec.xw (m ((c : Thread nD τ).loc main_arg0)) (m ((c : Thread nD τ).loc main_arg2)) r f := by
  rw [W1_v0_eq]; exact host_dot_apply _ _ r f

/-- The normaliser as a column after the second host stretch. -/
theorem W3_v2_eq (c : Dev nD) : aV2 m ρ c = shapeCast S16384x1 (aV1 m ρ c) shapeCasts_S1x16384_S16384x1 := by
  dsimp only [aV2, aV1, W3, hostOps1]; after_results; rfl

theorem W3_v2_apply (c : Dev nD) (r : Fin 16384) :
    aV2 m ρ c (ix2 r (0 : Fin 1)) = aV1 m ρ c (ix2 (0 : Fin 1) r) := by
  rw [W3_v2_eq]; exact host_reshape_col_apply _ r

/-- The scaled features after the second host stretch. -/
theorem W3_v4_eq (c : Dev nD) : aV4 m ρ c
    = mulf (F := Ideal) (φ := .f32) (broadcastInDim S16384x64 ![0, 1] bcast_S16384x1_S16384x64_0_1 (shapeCast S16384x1 (aV1 m ρ c) shapeCasts_S1x16384_S16384x1))
        (W2 m ρ c main_v0) := by
  dsimp only [aV4, aV1, W3, hostOps1]; after_results; rfl

theorem W3_v4_apply (c : Dev nD) (r : Fin 16384) (f : Fin 64) :
    aV4 m ρ c (ix2 r f) = aV2 m ρ c (ix2 r (0 : Fin 1)) * aV0 m ρ c (ix2 r f) := by
  rw [W3_v4_eq, host_mulf_apply, host_bcast_apply, W3_v2_eq]
  exact congrArg (fun t : FVec Ideal S16384x64 .f32 => shapeCast S16384x1 (aV1 m ρ c) shapeCasts_S1x16384_S16384x1 (ix2 r (0 : Fin 1)) * t (ix2 r f))
    (W2_of_ne m ρ c main_v0 (by decide))

/-- The bias as a row after the second host stretch. -/
theorem W3_v5_eq (c : Dev nD) : aV5 m ρ c
    = shapeCast S1x64 (W2 m ρ c main_arg3 : FVec Ideal S64 .f32) shapeCasts_S64_S1x64 := by
  dsimp only [aV5, W3, hostOps1]; after_results; rfl

end Cert.KernelIdeal.Hand

end
-- ==== Proof.IFrame.lean ====
/-
  The argument arrays at the end of the run: no host stretch writes one, the degree kernel's region only reads the
  adjacency, the aggregation region changes the result array alone — so the last boundary's contents at each
  argument are the launch contents, and the run gives the frame claim.
-/
import proofs.«150147_j40415642255629_2_alg».proof.Proof.IRun
import proofs.«150147_j40415642255629_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the first host stretch does not write holds its launch contents after it. -/
theorem W1_keep (c : Dev nD) (r : Ref sig .tc) (h : r ∉ hostOps0_W) : W1 m ρ c r = W0 m ρ c r :=
  StableHlo.after_of_writes_sub hostOps0 _ hostOps0_writes h
/-- A buffer the second host stretch does not write holds after it what the degree region left. -/
theorem W3_keep (c : Dev nD) (r : Ref sig .tc) (h : r ∉ hostOps1_W) : W3 m ρ c r = W2 m ρ c r :=
  StableHlo.after_of_writes_sub hostOps1 _ hostOps1_writes h
/-- The adjacency, which the degree region stages but never writes, leaves it as it entered. -/
theorem W2_adj (c : Dev nD) : W2 m ρ c main_arg1 = W1 m ρ c main_arg1 :=
  (W2_arr m ρ c 0).trans (((dat0 (V1 m ρ) c).arrAt_in 0 rfl _).trans (A_eq0 (V1 m ρ) c 0))

theorem W4_main_arg0 (c : Dev nD) : W4 m ρ c main_arg0 = m ((c : Thread nD τ).loc main_arg0) :=
  (V4_ne m ρ c main_arg0 (by decide)).trans <| (W3_keep m ρ c main_arg0 (by decide)).trans <|
    (W2_of_ne m ρ c main_arg0 (by decide)).trans <| (W1_keep m ρ c main_arg0 (by decide)).trans rfl
theorem W4_main_arg1 (c : Dev nD) : W4 m ρ c main_arg1 = m ((c : Thread nD τ).loc main_arg1) :=
  (V4_ne m ρ c main_arg1 (by decide)).trans <| (W3_keep m ρ c main_arg1 (by decide)).trans <|
    (W2_adj m ρ c).trans <| (W1_keep m ρ c main_arg1 (by decide)).trans rfl
theorem W4_main_arg2 (c : Dev nD) : W4 m ρ c main_arg2 = m ((c : Thread nD τ).loc main_arg2) :=
  (V4_ne m ρ c main_arg2 (by decide)).trans <| (W3_keep m ρ c main_arg2 (by decide)).trans <|
    (W2_of_ne m ρ c main_arg2 (by decide)).trans <| (W1_keep m ρ c main_arg2 (by decide)).trans rfl
theorem W4_main_arg3 (c : Dev nD) : W4 m ρ c main_arg3 = m ((c : Thread nD τ).loc main_arg3) :=
  (V4_ne m ρ c main_arg3 (by decide)).trans <| (W3_keep m ρ c main_arg3 (by decide)).trans <|
    (W2_of_ne m ρ c main_arg3 (by decide)).trans <| (W1_keep m ρ c main_arg3 (by decide)).trans rfl

/-- The run with its post read at the result and at the four arguments. -/
theorem run_read : θ_run defs (onTc (τ := τ) (main (F := F))) ⟨m, fun _ => 0, ρ⟩ (fun r => ∀ c : Dev nD,
      r.2.mem ((c.tc : Thread nD τ).loc main_v6) = W4 m ρ c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v6 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The frame claim: the program runs to its end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_read m ρ)

end Cert.KernelIdeal.Hand

end
-- ==== Proof.IDegValue.lean ====
import proofs.«150147_j40415642255629_2_alg».proof.Proof.IDegData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pieces each case of the degree pass leaves, as the payloads of its stores -/

/-- The zero offsets of a whole-block access. -/
theorem hz0 : (![0, 0] : Fin 2 → Nat) = fun _ => 0 := by funext a; fin_cases a <;> rfl

/-- At a zeroing point the accumulator ends at the block's column sums added to the zero vector. -/
theorem sout0_A_0_eq (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : cond0_0 i) (hc1 : ¬cond0_1 i) (x0 : Vec F S2048x2048 .f32) :
    sout0_A_0 c i arg2 harg2 arg3 harg3 arg4 harg4 hc0 hc1 x0 = k0_pay2 (k0_pay1) x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero hz0, View.readCov_unit_zero _ hz0]
  simp only [View.readAt_eq_ld, harg2.read_unread, View.ld_unit_zero (S := S2048x2048) hz0]

/-- At a middle point the accumulator ends at what it held plus the block's column sums. -/
theorem sout0_B_0_eq (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : ¬cond0_1 i) (x0 : Vec F S2048x2048 .f32) (xs0 : Vec F S1x2048 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz0]
  simp only [View.readAt_eq_ld, harg2.read_unread, harg4.read_unread, View.ld_unit_zero (S := S2048x2048) hz0, View.ld_unit_zero (S := S1x2048) hz0]

/-- At a storing point too. -/
theorem sout0_C_0_eq (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i) (x0 : Vec F S2048x2048 .f32) (xs0 : Vec F S1x2048 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz0]
  simp only [View.readAt_eq_ld, harg2.read_unread, harg4.read_unread, View.ld_unit_zero (S := S2048x2048) hz0, View.ld_unit_zero (S := S1x2048) hz0]

/-- At a storing point the output block is the inverse-square-root map of the finished accumulator. -/
theorem out0_C_1_eq (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (hc0 : ¬cond0_0 i) (hc1 : cond0_1 i) (x0 : Vec F S2048x2048 .f32) (xs0 : Vec F S1x2048 .f32) :
    out0_C_1 c i arg2 harg2 arg3 harg3 arg4 harg4 hc0 hc1 x0 xs0 = k0_pay3 (k0_pay2 xs0 x0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz0, View.readCov_unit_zero _ hz0]
  simp only [View.readAt_eq_ld, harg2.read_unread, harg4.read_unread, View.ld_unit_zero (S := S2048x2048) hz0, View.ld_unit_zero (S := S1x2048) hz0]

end Cert.KernelIdeal.Hand

end
-- ==== Proof.LibColumnReduce.lean ====
/-
  Reductions down the rows of a matrix, read at a column.

  At the extended reals the float add-reduction of an [a, b] vector over its FIRST axis from zero, read at column n, is
  the plain sum over the rows r of the entries (r, n); the maximum-reduction over the first axis from the pattern of −∞ is
  the fold of max from ⊥ over the column. With the library's cast of a [b] vector to the one row [1, b] and its broadcast of that
  row down [a, b], this is what a sum or maximum over axis 0 with keepdims, subtracted from or divided into every row, is
  made of.
-/
import Idealize.ShloMosaic.PureOps.Ideal.Laws
import Idealize.ShloMosaic.Lib.ValueIdx
import Idealize.ShloMosaic.Lib.Pipeline.Value

noncomputable section

namespace Cert.LibColumnReduce

open Idealize.ShloMosaic Idealize.ShloMosaic.ValueIdx
open scoped BigOperators

/-- The f32 pattern of −∞ denotes the bottom of the extended reals. -/
theorem negInf_f32 : Ideal.ofBits .f32 0xFF800000#32 = ⊥ := by simp [Ideal.ofBits, Ideal.ieee]

/-- The index (r, n) of an [a, b] array is the column index n with the row r inserted on the reduced (first) axis. -/
theorem lift_col {a b : ℕ} (h : Shape.Reduces ⟨2, ![a, b]⟩ [0] ⟨1, ![b]⟩) (n : Fin b) (r : Fin a) :
    h.lift (ix1 n) r = ix2 r n := by
  funext d
  match d with
  | ⟨0, _⟩ => rfl
  | ⟨1, _⟩ => rfl

/-- A sum down the rows of an [a, b] vector (an add-reduction over the first axis from zero), read at column n. -/
theorem colSum_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = 0x00000000#32) (n : Fin b) :
    multiReduction .add [0] ⟨1, ![b]⟩ src 0x00000000#32 h hφ hacc (ix1 n) = ∑ r : Fin a, src (ix2 r n) := by
  refine (Ideal.multiReduction_add_single src 0x00000000#32 h hφ hacc (ix1 n)).trans ?_
  exact Finset.sum_congr rfl fun r _ => congrArg src (lift_col h n r)

/-- A maximum down the rows of an [a, b] vector from −∞, read at column n: the fold of max from ⊥ over the column. -/
theorem colMax_apply {a b : ℕ} (src : FVec Ideal ⟨2, ![a, b]⟩ .f32) (h : Shape.Reduces ⟨2, ![a, b]⟩ [0] ⟨1, ![b]⟩)
    (hφ : FKind.Formats .f32) (hacc : (0xFF800000#32 : BitVec 32) = FKind.maximumf.neutral .f32 hφ) (n : Fin b) :
    multiReduction .maximumf [0] ⟨1, ![b]⟩ src 0xFF800000#32 h hφ hacc (ix1 n)
      = (Finset.univ : Finset (Fin a)).fold max ⊥ (fun r => src (ix2 r n)) := by
  refine (Ideal.multiReduction_maximumf_single src 0xFF800000#32 h hφ hacc (ix1 n)).trans ?_
  show (Finset.univ : Finset (Fin a)).fold max (Ideal.ofBits .f32 0xFF800000#32) (src ∘ h.lift (ix1 n)) = _
  rw [negInf_f32]
  exact congrArg (fun f => Finset.fold max ⊥ f (Finset.univ : Finset (Fin a))) (funext fun r => congrArg src (lift_col h n r))

end Cert.LibColumnReduce

end
-- ==== Proof.PayDeg.lean ====
/-
  The column-sum kernel's stored values read at an index, on the extended reals.

  The accumulator block [1, 2048] starts at zero; each grid point adds to entry (0, p) the sum over the 2048 rows of
  its block's column p; the last grid point stores, at (0, p), the inverse square root of the accumulated sum plus one
  where that is positive and zero elsewhere.
-/
import proofs.«150147_j40415642255629_2_alg».proof.Proof.Gen.KernelIdeal.Skeleton
import proofs.«150147_j40415642255629_2_alg».proof.Proof.Spec
import proofs.«150147_j40415642255629_2_alg».proof.Proof.LibColumnReduce
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx
open scoped BigOperators

/-- The accumulator is started at zero. -/
theorem k0_pay1_apply (p : Fin 2048) : k0_pay1 (F := Ideal) (ix2 (0 : Fin 1) p) = 0 := by
  unfold k0_pay1
  refine (congrFun (shapeCast_self _ _) _).trans ?_
  exact Cert.Spec.zero_eq

/-- One accumulation step: entry (0, p) grows by the sum of column p of the block over its 2048 rows. -/
theorem k0_pay2_apply (v3 : Vec Ideal S1x2048 .f32) (v4 : Vec Ideal S2048x2048 .f32) (p : Fin 2048) :
    k0_pay2 v3 v4 (ix2 (0 : Fin 1) p) = v3 (ix2 (0 : Fin 1) p) + ∑ r : Fin 2048, v4 (ix2 r p) := by
  unfold k0_pay2
  refine (congrFun (shapeCast_self _ _) _).trans ?_
  refine (addf_apply _ _ _).trans ?_
  refine congrArg (fun t => v3 (ix2 (0 : Fin 1) p) + t) ?_
  refine (shapeCast_a_1a_apply _ _ 0 p).trans ?_
  exact Cert.LibColumnReduce.colSum_apply v4 _ _ _ p

/-- The final value: the inverse square root of the accumulated sum plus one where positive, else zero. -/
theorem k0_pay3_apply (v14 : Vec Ideal S1x2048 .f32) (p : Fin 2048) :
    k0_pay3 v14 (ix2 (0 : Fin 1) p) = Cert.Spec.dinvOf (v14 (ix2 (0 : Fin 1) p)) :=
  Cert.Spec.dinvOf_vec v14 _

end Cert.KernelIdeal.Pay

end
-- ==== Proof.LibSumBlocks.lean ====
/-
  A sum of `J · n` consecutive terms cut into `n` consecutive blocks of `J` terms each: adding block by block
  gives the same total as adding all terms at once. Only commutativity and associativity of `+` are used, so
  the statement holds in every commutative additive monoid — in particular on the extended reals, where a sum
  may contain infinities and no cancellation law is available.
-/
import Mathlib.Algebra.BigOperators.Fin
import Mathlib.Algebra.BigOperators.Intervals

namespace Cert.LibSumBlocks

/-- Block `s` holds the terms `J·s, …, J·s + J - 1`; the first `n` blocks together are the first `J·n` terms. -/
theorem sum_blocks_range {β : Type*} [AddCommMonoid β] (g : ℕ → β) (J : ℕ) :
    ∀ n : ℕ, ∑ s ∈ Finset.range n, ∑ j ∈ Finset.range J, g (J * s + j) = ∑ k ∈ Finset.range (J * n), g k
  | 0 => by simp
  | n + 1 => by
    rw [Finset.sum_range_succ, sum_blocks_range g J n, Nat.mul_succ, Finset.sum_range_add]

/-- The same with the inner sums and the total indexed by `Fin`. -/
theorem sum_blocks_fin {β : Type*} [AddCommMonoid β] (g : ℕ → β) (J n : ℕ) :
    ∑ s ∈ Finset.range n, ∑ j : Fin J, g (J * s + j.val) = ∑ k : Fin (J * n), g k.val := by
  rw [Fin.sum_univ_eq_sum_range (fun k => g k) (J * n), ← sum_blocks_range g J n]
  refine Finset.sum_congr rfl fun s _ => ?_
  exact Fin.sum_univ_eq_sum_range (fun j => g (J * s + j)) J

end Cert.LibSumBlocks
-- ==== Proof.BlockSums.lean ====
/-
  A sum over 16384 consecutive terms cut into 8 blocks of 2048 or 16 blocks of 1024, and the step of an induction over
  blocks: the first J·(i+1) terms are the first J·i terms plus block i. Only commutativity and associativity of + are
  used, so the statements hold on the extended reals.
-/
import proofs.«150147_j40415642255629_2_alg».proof.Proof.LibSumBlocks
import Mathlib.Algebra.BigOperators.Fin
import Mathlib.Algebra.BigOperators.Intervals

namespace Cert.BlockSums

open scoped BigOperators

variable {β : Type*} [AddCommMonoid β]

/-- The first `J·(i+1)` terms are the first `J·i` terms plus the `J` terms of block `i`. -/
theorem sum_range_block_succ (g : ℕ → β) (J i : ℕ) :
    ∑ r ∈ Finset.range (J * (i + 1)), g r = ∑ r ∈ Finset.range (J * i), g r + ∑ r : Fin J, g (J * i + r.val) := by
  rw [Nat.mul_succ, Finset.sum_range_add, Fin.sum_univ_eq_sum_range (fun r => g (J * i + r)) J]

/-- No block: the empty sum. -/
theorem sum_range_block_zero (g : ℕ → β) (J : ℕ) : ∑ r ∈ Finset.range (J * 0), g r = 0 := by
  rw [Nat.mul_zero, Finset.sum_range_zero]

/-- `J·n` terms indexed by `Fin` are the first `J·n` terms. -/
theorem sum_fin_eq_range (g : ℕ → β) (N : ℕ) : ∑ r : Fin N, g r.val = ∑ r ∈ Finset.range N, g r :=
  Fin.sum_univ_eq_sum_range g N

/-- `J·n` terms are `n` blocks of `J` terms, everything indexed by `Fin`. -/
theorem sum_fin_blocks (g : ℕ → β) (J n : ℕ) :
    ∑ k : Fin (J * n), g k.val = ∑ s : Fin n, ∑ j : Fin J, g (J * s.val + j.val) := by
  rw [← Cert.LibSumBlocks.sum_blocks_fin g J n]
  exact (Fin.sum_univ_eq_sum_range (fun s => ∑ j : Fin J, g (J * s + j.val)) n).symm

/-- 16384 terms are 8 blocks of 2048. -/
theorem sum_16384_by_2048 (g : ℕ → β) :
    ∑ r : Fin 16384, g r.val = ∑ s : Fin 8, ∑ r : Fin 2048, g (2048 * s.val + r.val) :=
  sum_fin_blocks g 2048 8

/-- 16384 terms are 16 blocks of 1024. -/
theorem sum_16384_by_1024 (g : ℕ → β) :
    ∑ k : Fin 16384, g k.val = ∑ s : Fin 16, ∑ k : Fin 1024, g (1024 * s.val + k.val) :=
  sum_fin_blocks g 1024 16

/-- All 8 blocks of 2048: the whole sum over `Fin 16384`. -/
theorem sum_range_2048_8 (g : ℕ → β) : ∑ r ∈ Finset.range (2048 * 8), g r = ∑ r : Fin 16384, g r.val :=
  (Fin.sum_univ_eq_sum_range g 16384).symm

/-- All 16 blocks of 1024: the whole sum over `Fin 16384`. -/
theorem sum_range_1024_16 (g : ℕ → β) : ∑ r ∈ Finset.range (1024 * 16), g r = ∑ r : Fin 16384, g r.val :=
  (Fin.sum_univ_eq_sum_range g 16384).symm

/-- The induction step over blocks of 2048. -/
theorem sum_range_2048_succ (g : ℕ → β) (i : ℕ) :
    ∑ r ∈ Finset.range (2048 * (i + 1)), g r = ∑ r ∈ Finset.range (2048 * i), g r + ∑ r : Fin 2048, g (2048 * i + r.val) :=
  sum_range_block_succ g 2048 i

/-- The induction step over blocks of 1024. -/
theorem sum_range_1024_succ (g : ℕ → β) (i : ℕ) :
    ∑ r ∈ Finset.range (1024 * (i + 1)), g r = ∑ r ∈ Finset.range (1024 * i), g r + ∑ r : Fin 1024, g (1024 * i + r.val) :=
  sum_range_block_succ g 1024 i

/-- A function on `Fin N` extended by zero to the naturals, to feed the statements above. -/
def ext0 {N : ℕ} (G : Fin N → β) (n : ℕ) : β := if h : n < N then G ⟨n, h⟩ else 0

theorem ext0_val {N : ℕ} (G : Fin N → β) (r : Fin N) : ext0 G r.val = G r := dif_pos r.isLt

theorem ext0_of_lt {N : ℕ} (G : Fin N → β) (n : ℕ) (h : n < N) : ext0 G n = G ⟨n, h⟩ := dif_pos h

/-- The sum of a function on `Fin N` is the sum of the first `N` terms of its extension. -/
theorem sum_fin_eq_range_ext0 {N : ℕ} (G : Fin N → β) : ∑ r : Fin N, G r = ∑ r ∈ Finset.range N, ext0 G r := by
  rw [← Fin.sum_univ_eq_sum_range (ext0 G) N]
  exact Finset.sum_congr rfl fun r _ => (ext0_val G r).symm

/-- A sum over `Fin 16384` as 8 blocks of 2048 with the block entries as `Fin 16384` indices. -/
theorem sum_fin16384_by_2048 (G : Fin 16384 → β) :
    ∑ r : Fin 16384, G r = ∑ s : Fin 8, ∑ r : Fin 2048, G ⟨2048 * s.val + r.val, by omega⟩ := by
  have h := sum_16384_by_2048 (ext0 G)
  rw [Finset.sum_congr rfl fun r _ => ext0_val G r] at h
  rw [h]
  exact Finset.sum_congr rfl fun s _ => Finset.sum_congr rfl fun r _ => ext0_of_lt G _ (by omega)

/-- A sum over `Fin 16384` as 16 blocks of 1024 with the block entries as `Fin 16384` indices. -/
theorem sum_fin16384_by_1024 (G : Fin 16384 → β) :
    ∑ k : Fin 16384, G k = ∑ s : Fin 16, ∑ k : Fin 1024, G ⟨1024 * s.val + k.val, by omega⟩ := by
  have h := sum_16384_by_1024 (ext0 G)
  rw [Finset.sum_congr rfl fun r _ => ext0_val G r] at h
  rw [h]
  exact Finset.sum_congr rfl fun s _ => Finset.sum_congr rfl fun r _ => ext0_of_lt G _ (by omega)

end Cert.BlockSums
-- ==== Proof.IDegAcc.lean ====
import proofs.«150147_j40415642255629_2_alg».proof.Proof.IDegValue
import proofs.«150147_j40415642255629_2_alg».proof.Proof.PayDeg
import proofs.«150147_j40415642255629_2_alg».proof.Proof.BlockSums
import proofs.«150147_j40415642255629_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay
open scoped BigOperators

variable (V : (c : Dev nD) → (b : Ref sig .tc) → Buf (Elt Ideal) ((c : Thread nD τ).loc b))

/-! # The degree pass over the extended reals: the accumulator point by point, and the array it leaves -/

/-- The adjacency matrix as the region finds it, extended by zero outside its index range, over natural
    coordinates: sums over blocks of rows are then sums over ranges of naturals. -/
def adjExt (c : Dev nD) (R C : ℕ) : EReal :=
  if h : R < 16384 ∧ C < 16384 then V c main_arg1 (ix2 ⟨R, h.1⟩ ⟨C, h.2⟩) else 0

theorem adjExt_of_lt (c : Dev nD) (R C : ℕ) (hR : R < 16384) (hC : C < 16384) :
    adjExt V c R C = V c main_arg1 (ix2 ⟨R, hR⟩ ⟨C, hC⟩) := dif_pos ⟨hR, hC⟩

/-- The printed index maps over the grid: at point `t` the input block is block (t mod 8, t div 8) of the matrix and
    the output block is block (0, t div 8) of the row. -/
theorem idx_facts0 : ∀ t : Fin cfg0.N, win0_0.index t (0 : Fin 2) = t.val % 8 ∧ win0_0.index t (1 : Fin 2) = t.val / 8
    ∧ win0_1.index t (0 : Fin 2) = 0 ∧ win0_1.index t (1 : Fin 2) = t.val / 8 :=
  (by decide +kernel : ∀ t : Fin grid0.N, _)

/-- The input block at point `t`, entry (r, p): the matrix at row 2048·(t mod 8) + r, column 2048·(t div 8) + p. -/
theorem iblk0_0_apply (c : Dev nD) (t : Fin cfg0.N) (r p : Fin 2048) :
    iblk0 V c 0 t (ix2 r p) = adjExt V c (2048 * (t.val % 8) + r.val) (2048 * (t.val / 8) + p.val) := by
  have hN : t.val < 64 := lt_of_lt_of_eq t.isLt (show cfg0.N = 64 from N_0)
  obtain ⟨e0, e1, -, -⟩ := idx_facts0 t
  rw [adjExt_of_lt V c _ _ (by omega) (by omega)]
  unfold iblk0
  rw [View.read_apply]
  show V c main_arg1 _ = V c main_arg1 _
  congr 1
  funext a
  apply Fin.ext
  match a with
  | ⟨0, _⟩ => show win0_0.index t 0 * 2048 + 1 * r.val = 2048 * (t.val % 8) + r.val; rw [e0]; omega
  | ⟨1, _⟩ => show win0_0.index t 1 * 2048 + 1 * p.val = 2048 * (t.val / 8) + p.val; rw [e1]; omega

/-- The block's column sums are the next 2048 terms of the column's sum. -/
theorem blockSum (c : Dev nD) (t : Fin cfg0.N) (p : Fin 2048) (x0 : Vec Ideal S2048x2048 .f32) (hx : x0 = iblk0 V c 0 t) :
    ∑ r : Fin 2048, x0 (ix2 r p)
      = ∑ r : Fin 2048, adjExt V c (2048 * (t.val % 8) + r.val) (2048 * (t.val / 8) + p.val) := by
  subst hx
  exact Finset.sum_congr rfl fun r _ => iblk0_0_apply V c t r p

/-- THE ACCUMULATOR after point `t`, entry (0, p): the sum of the first 2048·(t mod 8 + 1) rows of column
    2048·(t div 8) + p of the matrix. -/
theorem acc0 (c : Dev nD) : ∀ (N : ℕ) (t : Fin cfg0.N), t.val = N → ∀ p : Fin 2048,
    (outsAt0 V c t.val t.isLt).2 (ix2 (0 : Fin 1) p)
      = ∑ r ∈ Finset.range (2048 * (t.val % 8 + 1)), adjExt V c r (2048 * (t.val / 8) + p.val) := by
  intro N
  induction N using Nat.strong_induction_on with
  | _ N ih =>
    intro t htN p
    have hN : t.val < 64 := lt_of_lt_of_eq t.isLt (show cfg0.N = 64 from N_0)
    by_cases h0 : t.val % 8 = 0
    · have h1 : ¬t.val % 8 = 7 := by omega
      rw [outsAt0_A V c t h0 h1]
      dsimp only
      rw [sout0_A_0_eq (F := Ideal) c (grid0.coords t) (ms0_0 t) (hs0_0 t) (ms0_1 t) (hs0_1 t) scM0_0 (Memref.isWhole_whole _) ((hcond0_0 t).mpr h0) (fun h => h1 ((hcond0_1 t).mp h)) (iblk0 V c 0 t)]
      rw [k0_pay2_apply, k0_pay1_apply, zero_add, blockSum V c t p (iblk0 V c 0 t) rfl, h0]
      rw [Cert.BlockSums.sum_range_2048_succ, Nat.mul_zero, Finset.sum_range_zero, zero_add]
    · have hpos : t.val ≠ 0 := fun e => h0 (by rw [e])
      have ihp := ih (t.val - 1) (by omega) ⟨t.val - 1, Nat.lt_of_le_of_lt (Nat.sub_le _ _) t.isLt⟩ rfl p
      dsimp only at ihp
      have e8 : (t.val - 1) % 8 + 1 = t.val % 8 := by omega
      have ed : (t.val - 1) / 8 = t.val / 8 := by omega
      rw [e8, ed] at ihp
      have step : ∀ xs0 : Vec Ideal S1x2048 .f32,
          xs0 (ix2 (0 : Fin 1) p) = ∑ r ∈ Finset.range (2048 * (t.val % 8)), adjExt V c r (2048 * (t.val / 8) + p.val) →
          k0_pay2 xs0 (iblk0 V c 0 t) (ix2 (0 : Fin 1) p)
            = ∑ r ∈ Finset.range (2048 * (t.val % 8 + 1)), adjExt V c r (2048 * (t.val / 8) + p.val) := by
        intro xs0 hx
        rw [k0_pay2_apply, hx, blockSum V c t p (iblk0 V c 0 t) rfl, Cert.BlockSums.sum_range_2048_succ]
      by_cases h1 : t.val % 8 = 7
      · rw [outsAt0_C V c t h0 h1]
        dsimp only
        rw [sout0_C_0_eq (F := Ideal) c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2]
        exact step _ ihp
      · rw [outsAt0_B V c t h0 h1]
        dsimp only
        rw [sout0_B_0_eq (F := Ideal) c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2]
        exact step _ ihp

/-- At the last point of a column of the grid the accumulator holds the whole column sums. -/
theorem acc0_full (c : Dev nD) (t : Fin cfg0.N) (h1 : t.val % 8 = 7) (p : Fin 2048) (hC : 2048 * (t.val / 8) + p.val < 16384) :
    (outsAt0 V c t.val t.isLt).2 (ix2 (0 : Fin 1) p) = Cert.Spec.colsum (V c main_arg1) ⟨2048 * (t.val / 8) + p.val, hC⟩ := by
  rw [acc0 V c t.val t rfl p, h1]
  show ∑ r ∈ Finset.range (2048 * 8), adjExt V c r (2048 * (t.val / 8) + p.val) = _
  rw [Cert.BlockSums.sum_range_2048_8]
  unfold Cert.Spec.colsum
  exact Finset.sum_congr rfl fun r _ => adjExt_of_lt V c r.val _ r.isLt hC

/-- At such a point the output block is the normalisation map of the accumulator. -/
theorem out_eq_pay3 (c : Dev nD) (t : Fin cfg0.N) (h0 : ¬t.val % 8 = 0) (h1 : t.val % 8 = 7) :
    (outsAt0 V c t.val t.isLt).1 = k0_pay3 (outsAt0 V c t.val t.isLt).2 := by
  rw [outsAt0_C V c t h0 h1]
  dsimp only
  rw [out0_C_1_eq (F := Ideal) c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2,
    sout0_C_0_eq (F := Ideal) c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2]

/-! ## The array the pass leaves -/

/-- The row of normalisations: entry (0, n) is the normalisation of node n. -/
def dinvRow (c : Dev nD) : Buf (Elt Ideal) ((cfg0.win 1).arr.view.loc (c.tc : Thread nD τ)) :=
  fun idx => Cert.Spec.dinv (V c main_arg1) ⟨(idx 1).val, (idx 1).isLt⟩

/-- An index of the row is in point `t`'s block iff each coordinate is in the block's range on its axis. -/
theorem mem_blk0_1 (t : Fin cfg0.N) (i : S1x16384.Idx) :
    i ∈ ((cfg0.win 1).blk t).view.set ↔ ∀ a : Fin 2, win0_1.index t a * S1x2048.size a ≤ (i a).val ∧ (i a).val < win0_1.index t a * S1x2048.size a + S1x2048.size a := by
  show i ∈ ((View.whole main_v1).slice (win0_1.rect t)).set ↔ _
  rw [View.set_slice_whole, Rect.mem_set_unit]
  exact Iff.rfl

/-- What a write-back point writes back is its block of the row of normalisations. -/
theorem flushed0_1_eq (c : Dev nD) (t : Fin cfg0.N) (hf : (cfg0.win 1).flush t = true) :
    (dat0 V c).flushed 1 t = ((cfg0.win 1).blk t).view.read (Elt Ideal) (dinvRow V c) := by
  have hN : t.val < 64 := lt_of_lt_of_eq t.isLt (show cfg0.N = 64 from N_0)
  have h1 : t.val % 8 = 7 := (flush0_1 t).mp hf
  have h0 : ¬t.val % 8 = 0 := by omega
  obtain ⟨-, -, e2, e3⟩ := idx_facts0 t
  show (cfg0.win 1).cut (grid0.coords t) ((dat0 V c).after 1 t) = _
  rw [after0_1, out_eq_pay3 V c t h0 h1]
  refine funext fun (j : S1x2048.Idx) => ?_
  obtain ⟨p, rfl⟩ : ∃ p : Fin 2048, j = ix2 (0 : Fin 1) p :=
    ⟨j 1, (eq_ix2 (n0 := 1) (n1 := 2048) j).trans (congrArg (fun u => ix2 u (j 1)) (Fin.ext (Nat.lt_one_iff.mp (j 0).isLt) : j 0 = (0 : Fin 1)))⟩
  rw [View.read_apply]
  show k0_pay3 (outsAt0 V c t.val t.isLt).2 (ix2 (0 : Fin 1) p) = _
  rw [k0_pay3_apply, acc0_full V c t h1 p (by omega)]
  unfold dinvRow Cert.Spec.dinv
  congr 2
  apply Fin.ext
  show 2048 * (t.val / 8) + p.val = win0_1.index t 1 * 2048 + 1 * p.val
  rw [e3]; omega

/-- THE ARRAY after the pass: the row of normalisations. -/
theorem deg_final_row (c : Dev nD) : (dat0 V c).arrAt 1 cfg0.N = dinvRow V c :=
  (dat0 V c).arrAt_eq_of_cover 1 (dinvRow V c) (flushed0_1_eq V c) fun i => by
    have hi0 : (i 0).val < 1 := (i 0).isLt
    have hi1 : (i 1).val < 16384 := (i 1).isLt
    have hlt : 8 * ((i 1).val / 2048) + 7 < cfg0.N := by rw [show cfg0.N = 64 from N_0]; omega
    refine ⟨⟨8 * ((i 1).val / 2048) + 7, hlt⟩, (flush0_1 _).mpr (by show (8 * ((i 1).val / 2048) + 7) % 8 = 7; omega), ?_⟩
    rw [mem_blk0_1]
    obtain ⟨-, -, e2, e3⟩ := idx_facts0 ⟨8 * ((i 1).val / 2048) + 7, hlt⟩
    intro a
    match a with
    | ⟨0, _⟩ => show win0_1.index _ 0 * 1 ≤ (i 0).val ∧ (i 0).val < win0_1.index _ 0 * 1 + 1; rw [e2]; omega
    | ⟨1, _⟩ => show win0_1.index _ 1 * 2048 ≤ (i 1).val ∧ (i 1).val < win0_1.index _ 1 * 2048 + 2048; rw [e3]; show (8 * ((i 1).val / 2048) + 7) / 8 * 2048 ≤ (i 1).val ∧ (i 1).val < (8 * ((i 1).val / 2048) + 7) / 8 * 2048 + 2048; omega

/-- Entry (0, n) of the array the pass leaves is the normalisation of node n. -/
theorem deg_final (c : Dev nD) (n : Fin 16384) :
    (dat0 V c).arrAt 1 cfg0.N (ix2 (0 : Fin 1) n) = Cert.Spec.dinv (V c main_arg1) n := by
  rw [deg_final_row]; rfl

end Cert.KernelIdeal.Hand

end
-- ==== Proof.Compose.lean ====
import proofs.«150147_j40415642255629_2_alg».proof.Proof.Spec

/-!
  The specification composed from the intermediate arrays: the feature transform, the normalisation as a
  row and as a column, the scaled features, the bias as a row, and the final aggregation.
-/

noncomputable section

open scoped BigOperators

namespace Cert.Spec

open Idealize.ShloMosaic Idealize.ShloMosaic.ValueIdx
open Cert.KernelIdeal (S16384x16384 S16384x64 S64x64 S64 S1x16384 S16384x1 S1x64)

/-- If each intermediate array is, index by index, the stage it stands for, the last array is the layer's output. -/
theorem compose (x : FVec Ideal S16384x64 .f32) (adj : FVec Ideal S16384x16384 .f32) (W : FVec Ideal S64x64 .f32)
    (b : FVec Ideal S64 .f32) (v0 : FVec Ideal S16384x64 .f32) (v1 : FVec Ideal S1x16384 .f32)
    (v2 : FVec Ideal S16384x1 .f32) (v4 : FVec Ideal S16384x64 .f32) (v5 : FVec Ideal S1x64 .f32)
    (v6 : FVec Ideal S16384x64 .f32)
    (h0 : ∀ (r : Fin 16384) (f : Fin 64), v0 (ix2 r f) = xw x W r f)
    (h1 : ∀ n : Fin 16384, v1 (ix2 (0 : Fin 1) n) = dinv adj n)
    (h2 : ∀ r : Fin 16384, v2 (ix2 r (0 : Fin 1)) = v1 (ix2 (0 : Fin 1) r))
    (h4 : ∀ (r : Fin 16384) (f : Fin 64), v4 (ix2 r f) = v2 (ix2 r (0 : Fin 1)) * v0 (ix2 r f))
    (h5 : ∀ f : Fin 64, v5 (ix2 (0 : Fin 1) f) = b (ix1 f))
    (h6 : ∀ (j : Fin 16384) (f : Fin 64), v6 (ix2 j f)
      = fin (v2 (ix2 j (0 : Fin 1))) (∑ k : Fin 16384, adj (ix2 k j) * v4 (ix2 k f)) (v4 (ix2 j f))
          (v5 (ix2 (0 : Fin 1) f))) :
    v6 = outArr x adj W b := by
  have hz : ∀ (r : Fin 16384) (f : Fin 64), v4 (ix2 r f) = z x adj W r f := fun r f => by
    rw [h4, h2, h1, h0]; rfl
  funext i
  obtain ⟨j, f, rfl⟩ : ∃ (j : Fin 16384) (f : Fin 64), i = ix2 j f := ⟨i 0, i 1, eq_ix2 i⟩
  rw [outArr_apply, h6, h2, h1, h5, hz]
  unfold out
  exact congrArg (fun a => fin (dinv adj j) a (z x adj W j f) (b (ix1 f)))
    (Finset.sum_congr rfl fun k _ => by rw [hz])

end Cert.Spec

end
-- ==== Proof.IGcnValue.lean ====
/-
  The aggregation kernel's found pieces are its payloads: what each case of the body leaves in the accumulator is one
  accumulation step on the point's adjacency and feature blocks (from the zero block at the first row block, from what
  the block before left otherwise), and what the last case leaves in the output block is the epilogue of that step's
  result with the point's scale, own-feature and bias blocks.
-/
import proofs.«150147_j40415642255629_2_alg».proof.Proof.IGcnData
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl

/-- The first row block: the zero block is stored, read back, and receives the block's product. -/
theorem accA_eq (c : Dev nD) (t : Fin cfg1.N) (h0 : t.val % 16 = 0) (h1 : ¬t.val % 16 = 15) :
    accA V c t h0 h1 = k1_pay2 (iblk1 V c 0 t) (iblk1 V c 1 t) (k1_pay1 (F := F)) := by
  unfold accA
  rw [View.read_writes_eq_canon _ _ _ (scoverA V c t h0 h1)]
  unfold runA_at kernelRun1_A
  dsimp only
  sl_unfold_words
  rw [View.canon_cons_unit_zero (S := S2048x64) hz2, View.readCov_unit_zero (S := S2048x64) _ hz2]
  simp only [View.readAt_eq_ld, (hs1_0 t).read_unread, (hs1_1 t).read_unread,
    View.ld_unit_zero (S := S1024x2048) hz2, View.ld_unit_zero (S := S1024x64) hz2]

/-- A middle row block: the accumulator receives the block's product. -/
theorem accB_eq (c : Dev nD) (t : Fin cfg1.N) (h0 : ¬t.val % 16 = 0) (h1 : ¬t.val % 16 = 15) (xs0 : Vec F S2048x64 .f32) :
    accB V c t h0 h1 xs0 = k1_pay2 (iblk1 V c 0 t) (iblk1 V c 1 t) xs0 := by
  unfold accB
  rw [View.read_writes_eq_canon _ _ _ (scoverB V c t h0 h1 xs0)]
  unfold runB_at kernelRun1_B
  dsimp only
  rw [View.canon_unit_zero hz2]
  simp only [View.readAt_eq_ld, (hs1_0 t).read_unread, (hs1_1 t).read_unread, (Memref.isWhole_whole cc1_scratch0).read_unread,
    View.ld_unit_zero (S := S1024x2048) hz2, View.ld_unit_zero (S := S1024x64) hz2, View.ld_unit_zero (S := S2048x64) hz2]

/-- The last row block: the accumulator receives the block's product … -/
theorem accC_eq (c : Dev nD) (t : Fin cfg1.N) (h0 : ¬t.val % 16 = 0) (h1 : t.val % 16 = 15) (xs0 : Vec F S2048x64 .f32) :
    accC V c t h0 h1 xs0 = k1_pay2 (iblk1 V c 0 t) (iblk1 V c 1 t) xs0 := by
  unfold accC
  rw [View.read_writes_eq_canon _ _ _ (scoverC V c t h0 h1 xs0)]
  unfold runC_at kernelRun1_C
  dsimp only
  sl_unfold_words
  rw [View.canon_unit_zero hz2]
  simp only [View.readAt_eq_ld, (hs1_0 t).read_unread, (hs1_1 t).read_unread, (Memref.isWhole_whole cc1_scratch0).read_unread,
    View.ld_unit_zero (S := S1024x2048) hz2, View.ld_unit_zero (S := S1024x64) hz2, View.ld_unit_zero (S := S2048x64) hz2]

/-- … and the output block receives the epilogue of that result. -/
theorem outC_eq (c : Dev nD) (t : Fin cfg1.N) (h0 : ¬t.val % 16 = 0) (h1 : t.val % 16 = 15) (xs0 : Vec F S2048x64 .f32) :
    outC V c t h0 h1 xs0
      = k1_pay3 (iblk1 V c 3 t) (k1_pay2 (iblk1 V c 0 t) (iblk1 V c 1 t) xs0) (iblk1 V c 2 t) (iblk1 V c 4 t) := by
  unfold outC
  rw [View.read_writes_eq_canon _ _ _ (coverC V c t h0 h1 xs0)]
  unfold runC_at kernelRun1_C
  dsimp only
  sl_unfold_words
  rw [View.canon_unit_zero hz2, View.readCov_unit_zero (S := S2048x64) _ hz2]
  simp only [View.readAt_eq_ld, (hs1_0 t).read_unread, (hs1_1 t).read_unread, (hs1_2 t).read_unread, (hs1_3 t).read_unread,
    (hs1_4 t).read_unread, (Memref.isWhole_whole cc1_scratch0).read_unread,
    View.ld_unit_zero (S := S1024x2048) hz2, View.ld_unit_zero (S := S1024x64) hz2, View.ld_unit_zero (S := S2048x64) hz2,
    View.ld_unit_zero (S := S2048x1) hz2, View.ld_unit_zero (S := S1x64) hz2]

end Cert.KernelIdeal.Hand

end
-- ==== Proof.IGcnBlocks.lean ====
/-
  The aggregation kernel's blocks read off the arrays: at grid point t = 16·j + i (column block j of the adjacency, row
  block i) the adjacency block's entry (k, p) is the adjacency at (1024·i + k, 2048·j + p), the contracted feature
  block's entry (k, q) is the scaled features at (1024·i + k, q), the own-feature block's entry (p, q) is the scaled
  features at (2048·j + p, q), the scale block's entry (p, 0) is the scale column at (2048·j + p, 0), and the bias
  block is the bias row.
-/
import proofs.«150147_j40415642255629_2_alg».proof.Proof.IGcnData
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

open Idealize.ShloMosaic.ValueIdx

/-- The grid has 128 points. -/
theorem N1_eq : cfg1.N = 128 := N_1

theorem col_lt (t : Fin cfg1.N) : t.val / 16 < 8 := by
  have h : t.val < cfg1.N := t.isLt
  have hN : cfg1.N = 128 := N1_eq
  omega
theorem row_lt (t : Fin cfg1.N) : t.val % 16 < 16 := Nat.mod_lt _ (by decide)

/-- The printed index maps over the grid, in closed form. -/
theorem idx_facts1 : ∀ t : Fin cfg1.N,
    win1_0.index t (0 : Fin 2) = t.val % 16 ∧ win1_0.index t (1 : Fin 2) = t.val / 16
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

/-- Row 1024·i + k of the 16384 rows, for a row block i and a row k of the block. -/
abbrev rowIx (t : Fin cfg1.N) (k : Fin 1024) : Fin 16384 := ⟨1024 * (t.val % 16) + k.val, by have := row_lt t; omega⟩
/-- Column (or output row) 2048·j + p, for a column block j and a column p of the block. -/
abbrev colIx (t : Fin cfg1.N) (p : Fin 2048) : Fin 16384 := ⟨2048 * (t.val / 16) + p.val, by have := col_lt t; omega⟩

theorem iblk1_0_apply (c : Dev nD) (t : Fin cfg1.N) (k : Fin 1024) (p : Fin 2048) :
    iblk1 V c 0 t (ix2 k p) = V c main_arg1 (ix2 (rowIx t k) (colIx t p)) := by
  show V c main_arg1 (((cfg1.win 0).blk t).view.emb (ix2 k p)) = _
  refine congrArg (V c main_arg1) (funext fun a => Fin.ext ?_)
  obtain ⟨e0, e1, -⟩ := idx_facts1 t
  match a with
  | ⟨0, _⟩ => show win1_0.index t (0 : Fin 2) * 1024 + 1 * k.val = 1024 * (t.val % 16) + k.val; omega
  | ⟨1, _⟩ => show win1_0.index t (1 : Fin 2) * 2048 + 1 * p.val = 2048 * (t.val / 16) + p.val; omega

theorem iblk1_1_apply (c : Dev nD) (t : Fin cfg1.N) (k : Fin 1024) (q : Fin 64) :
    iblk1 V c 1 t (ix2 k q) = V c main_v4 (ix2 (rowIx t k) q) := by
  show V c main_v4 (((cfg1.win 1).blk t).view.emb (ix2 k q)) = _
  refine congrArg (V c main_v4) (funext fun a => Fin.ext ?_)
  obtain ⟨-, -, e0, e1, -⟩ := idx_facts1 t
  match a with
  | ⟨0, _⟩ => show win1_1.index t (0 : Fin 2) * 1024 + 1 * k.val = 1024 * (t.val % 16) + k.val; omega
  | ⟨1, _⟩ => show win1_1.index t (1 : Fin 2) * 64 + 1 * q.val = q.val; omega

theorem iblk1_2_apply (c : Dev nD) (t : Fin cfg1.N) (p : Fin 2048) (q : Fin 64) :
    iblk1 V c 2 t (ix2 p q) = V c main_v4 (ix2 (colIx t p) q) := by
  show V c main_v4 (((cfg1.win 2).blk t).view.emb (ix2 p q)) = _
  refine congrArg (V c main_v4) (funext fun a => Fin.ext ?_)
  obtain ⟨-, -, -, -, e0, e1, -⟩ := idx_facts1 t
  match a with
  | ⟨0, _⟩ => show win1_2.index t (0 : Fin 2) * 2048 + 1 * p.val = 2048 * (t.val / 16) + p.val; omega
  | ⟨1, _⟩ => show win1_2.index t (1 : Fin 2) * 64 + 1 * q.val = q.val; omega

theorem iblk1_3_apply (c : Dev nD) (t : Fin cfg1.N) (p : Fin 2048) :
    iblk1 V c 3 t (ix2 p (0 : Fin 1)) = V c main_v2 (ix2 (colIx t p) (0 : Fin 1)) := by
  show V c main_v2 (((cfg1.win 3).blk t).view.emb (ix2 p (0 : Fin 1))) = _
  refine congrArg (V c main_v2) (funext fun a => Fin.ext ?_)
  obtain ⟨-, -, -, -, -, -, e0, e1, -⟩ := idx_facts1 t
  match a with
  | ⟨0, _⟩ => show win1_3.index t (0 : Fin 2) * 2048 + 1 * p.val = 2048 * (t.val / 16) + p.val; omega
  | ⟨1, _⟩ => show win1_3.index t (1 : Fin 2) * 1 + 1 * 0 = 0; omega

theorem iblk1_4_apply (c : Dev nD) (t : Fin cfg1.N) (q : Fin 64) :
    iblk1 V c 4 t (ix2 (0 : Fin 1) q) = V c main_v5 (ix2 (0 : Fin 1) q) := by
  show V c main_v5 (((cfg1.win 4).blk t).view.emb (ix2 (0 : Fin 1) q)) = _
  refine congrArg (V c main_v5) (funext fun a => Fin.ext ?_)
  obtain ⟨-, -, -, -, -, -, -, -, e0, e1, -⟩ := idx_facts1 t
  match a with
  | ⟨0, _⟩ => show win1_4.index t (0 : Fin 2) * 1 + 1 * 0 = 0; omega
  | ⟨1, _⟩ => show win1_4.index t (1 : Fin 2) * 64 + 1 * q.val = q.val; omega

end Cert.KernelIdeal.Hand

end
-- ==== Proof.LibFirstAxisDot.lean ====
/-
  A matrix product whose two operands are BOTH contracted on their FIRST axis, read at an index, at the ideal instance.

  For the dimension numbers "contraction × rows times contraction × columns" (`FirstAxisDot.dims K M N`: the product
  xᵀ · y written without a transpose; lhs_contracting = [0], rhs_contracting = [0], lhs_non_contracting = [1],
  rhs_non_contracting = [1]) both the vector unit's matmul into a zero accumulator and the host's dot_general are, at
  output index (a, b), the sum over k of l (k, a) · r (k, b) on the extended reals. The sum over the one-axis
  contraction index is re-indexed by its one coordinate.
-/
import Idealize.ShloMosaic.PureOps.Ideal.Laws
import Idealize.ShloMosaic.Lib.ValueIdx

noncomputable section

open scoped BigOperators

namespace Idealize.ShloMosaic.FirstAxisDot

open Idealize.ShloMosaic Idealize.ShloMosaic.ValueIdx

/-- `<[0], [0], [1], [1], [0, 1, 1, 1], [], []>`: `K×M` by `K×N`, both operands contracted on their first axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

theorem lhs0 (K M N : Nat) (i : (⟨2, ![M, N]⟩ : Shape).Idx) (q : (dims K M N).contr.Idx) :
    ((dims K M N).lhsIdx i q 0).val = (q ⟨0, Nat.one_pos⟩).val :=
  (dims K M N).lhsIdx_val_of_single rfl i q
theorem lhs1 (K M N : Nat) (i : (⟨2, ![M, N]⟩ : Shape).Idx) (q : (dims K M N).contr.Idx) :
    ((dims K M N).lhsIdx i q 1).val = (i 0).val := by
  unfold DotDims.lhsIdx
  rw [dif_neg (show ¬(1 : Fin 2) ∈ (dims K M N).lhsBatch from List.not_mem_nil),
    dif_pos (show (1 : Fin 2) ∈ (dims K M N).lhsNonContracting from List.mem_singleton.mpr rfl)]
  rfl
theorem rhs0 (K M N : Nat) (i : (⟨2, ![M, N]⟩ : Shape).Idx) (q : (dims K M N).contr.Idx) :
    ((dims K M N).rhsIdx i q 0).val = (q ⟨0, Nat.one_pos⟩).val :=
  (dims K M N).rhsIdx_val_of_single rfl i q
theorem rhs1 (K M N : Nat) (i : (⟨2, ![M, N]⟩ : Shape).Idx) (q : (dims K M N).contr.Idx) :
    ((dims K M N).rhsIdx i q 1).val = (i 1).val := by
  unfold DotDims.rhsIdx
  rw [dif_neg (show ¬(1 : Fin 2) ∈ (dims K M N).rhsBatch from List.not_mem_nil),
    dif_pos (show (1 : Fin 2) ∈ (dims K M N).rhsNonContracting from List.mem_singleton.mpr rfl)]
  rfl

/-- The contraction sum of such a product at (a, b), over the coordinate `k : Fin K`. -/
theorem sum_firstAxes (K M N : Nat) {φ₁ φ₂ : FTy} (l : FVec Ideal ⟨2, ![K, M]⟩ φ₁) (r : FVec Ideal ⟨2, ![K, N]⟩ φ₂)
    (a : Fin M) (b : Fin N) :
    ∑ k : (dims K M N).contr.Idx, l ((dims K M N).lhsIdx (ix2 a b) k) * r ((dims K M N).rhsIdx (ix2 a b) k)
      = ∑ k : Fin K, l (ix2 k a) * r (ix2 k b) := by
  rw [← Equiv.sum_comp (contrEquiv1 (dims K M N) K rfl rfl).symm]
  refine Finset.sum_congr rfl fun k _ => ?_
  have hk := contrEquiv1_symm_val (dims K M N) K rfl rfl k
  have el : (dims K M N).lhsIdx (ix2 a b) ((contrEquiv1 (dims K M N) K rfl rfl).symm k) = ix2 k a :=
    funext fun d => Fin.ext (by
      match d with
      | ⟨0, _⟩ => exact (lhs0 K M N _ _).trans hk
      | ⟨1, _⟩ => exact lhs1 K M N _ _)
  have er : (dims K M N).rhsIdx (ix2 a b) ((contrEquiv1 (dims K M N) K rfl rfl).symm k) = ix2 k b :=
    funext fun d => Fin.ext (by
      match d with
      | ⟨0, _⟩ => exact (rhs0 K M N _ _).trans hk
      | ⟨1, _⟩ => exact rhs1 K M N _ _)
  rw [el, er]

/-- The vector unit's matmul into the zero accumulator, at (a, b). -/
theorem matmul_firstAxes {K M N : Nat} {φ₁ φ₂ : FTy} (D : DotDims ⟨2, ![K, M]⟩ ⟨2, ![K, N]⟩ ⟨2, ![M, N]⟩)
    (hD : D = dims K M N) (prec : Option ContractPrecision)
    (l : FVec Ideal ⟨2, ![K, M]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 k a) * r (ix2 k b) := by
  subst hD
  exact (Ideal.matmul_constant_zero_apply _ prec l r (ix2 a b)).trans (sum_firstAxes K M N l r a b)

/-- The host's dot_general, at (a, b). -/
theorem dotGeneral_firstAxes {K M N : Nat} {φ₁ φ₂ : FTy} (D : DotDims ⟨2, ![K, M]⟩ ⟨2, ![K, N]⟩ ⟨2, ![M, N]⟩)
    (hD : D = dims K M N) (prec : Option ContractPrecision)
    (l : FVec Ideal ⟨2, ![K, M]⟩ φ₁) (r : FVec Ideal ⟨2, ![K, N]⟩ φ₂) (a : Fin M) (b : Fin N) :
    Host.dotGeneral (F := Ideal) D prec l r (ix2 a b) = ∑ k : Fin K, l (ix2 k a) * r (ix2 k b) := by
  subst hD
  simp only [Host.dotGeneral]
  exact (Ideal.dotGeneral_apply _ prec _ l r (ix2 a b)).trans (sum_firstAxes K M N l r a b)

end Idealize.ShloMosaic.FirstAxisDot

end
-- ==== Proof.PayGcn.lean ====
/-
  The aggregation kernel's stored values read at an index, on the extended reals.

  The accumulator block [2048, 64] starts at zero; each grid point adds to entry (p, q) the sum over the 1024 rows k
  of its adjacency block of block (k, p) times feature block (k, q) — the product of the transposed adjacency block
  with the feature block; the last grid point stores, at (p, q), the maximum of zero and the row scale of p times
  (accumulator plus the row's own features) plus the bias of q.
-/
import proofs.«150147_j40415642255629_2_alg».proof.Proof.Gen.KernelIdeal.Skeleton
import proofs.«150147_j40415642255629_2_alg».proof.Proof.Spec
import proofs.«150147_j40415642255629_2_alg».proof.Proof.LibFirstAxisDot
import proofs.«150147_j40415642255629_2_alg».proof.Proof.LibIndexRead
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx
open scoped BigOperators

/-- The accumulator is started at zero. -/
theorem k1_pay1_apply (p : Fin 2048) (q : Fin 64) : k1_pay1 (F := Ideal) (ix2 p q) = 0 := by
  unfold k1_pay1
  refine (congrFun (shapeCast_self _ _) _).trans ?_
  exact Cert.Spec.zero_eq

/-- One accumulation step: entry (p, q) grows by the sum over the block's rows k of block (k, p) times features (k, q). -/
theorem k1_pay2_apply (v3 : Vec Ideal S1024x2048 .f32) (v5 : Vec Ideal S1024x64 .f32) (v8 : Vec Ideal S2048x64 .f32)
    (p : Fin 2048) (q : Fin 64) :
    k1_pay2 v3 v5 v8 (ix2 p q) = v8 (ix2 p q) + ∑ k : Fin 1024, v3 (ix2 k p) * v5 (ix2 k q) := by
  unfold k1_pay2
  refine (congrFun (shapeCast_self _ _) _).trans ?_
  refine (addf_apply _ _ _).trans ?_
  refine congrArg (fun t => v8 (ix2 p q) + t) ?_
  refine (FirstAxisDot.matmul_firstAxes _ rfl none _ _ p q).trans ?_
  refine Finset.sum_congr rfl fun k _ => ?_
  exact congrArg (fun t => v3 (ix2 k p) * t) (congrFun (shapeCast_self v5 _) (ix2 k q))

/-- The final value: the maximum of zero and scale(p) · (accumulator + own features) + bias(q). -/
theorem k1_pay3_apply (v17 : Vec Ideal S2048x1 .f32) (v19 v20 : Vec Ideal S2048x64 .f32) (v25 : Vec Ideal S1x64 .f32)
    (p : Fin 2048) (q : Fin 64) :
    k1_pay3 v17 v19 v20 v25 (ix2 p q)
      = Cert.Spec.fin (v17 (ix2 p (0 : Fin 1))) (v19 (ix2 p q)) (v20 (ix2 p q)) (v25 (ix2 (0 : Fin 1) q)) := by
  unfold k1_pay3
  refine (maximumf_apply _ _ _).trans ?_
  refine congrArg (fun t => max t (Ideal.ofBits .f32 0x00000000#32)) ?_
  refine (addf_apply _ _ _).trans ?_
  refine congrArg₂ (fun s t => s + t) ?_ ?_
  · refine (mulf_apply _ _ _).trans ?_
    refine congrArg₂ (fun s t => s * t) ?_ ?_
    · refine (RowRead.broadcastTo_a1_ab_apply _ _ p q).trans ?_
      exact congrFun (shapeCast_self v17 _) _
    · refine (addf_apply _ _ _).trans ?_
      exact congrArg (fun t => v19 (ix2 p q) + t) (congrFun (shapeCast_self v20 _) _)
  · refine (broadcastTo_1b_ab_apply _ _ p q).trans ?_
    exact congrFun (shapeCast_self v25 _) _

end Cert.KernelIdeal.Pay

end
-- ==== Proof.IGcnSum.lean ====
/-
  The aggregation kernel's accumulator and output block in closed form, on the extended reals. At grid point
  t = 16·j + i the accumulator's entry (p, q) holds the sum over the first 1024·(i+1) rows k of adjacency (k, 2048·j + p)
  times scaled features (k, q); at the last row block (i = 15) that is the sum over all 16384 rows, and the output
  block's entry (p, q) is the epilogue of it: max(0, scale(J) · (sum + features(J, q)) + bias(q)) with J = 2048·j + p.
-/
import proofs.«150147_j40415642255629_2_alg».proof.Proof.IGcnValue
import proofs.«150147_j40415642255629_2_alg».proof.Proof.IGcnBlocks
import proofs.«150147_j40415642255629_2_alg».proof.Proof.PayGcn
import proofs.«150147_j40415642255629_2_alg».proof.Proof.BlockSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The arrays the region reads, as it finds them, at their literal shapes: the adjacency, the scaled features, the
    scale column and the bias row. -/
abbrev arrAdj (c : Dev nD) : FVec Ideal S16384x16384 .f32 := V c main_arg1
abbrev arrZ (c : Dev nD) : FVec Ideal S16384x64 .f32 := V c main_v4
abbrev arrD (c : Dev nD) : FVec Ideal S16384x1 .f32 := V c main_v2
abbrev arrB (c : Dev nD) : FVec Ideal S1x64 .f32 := V c main_v5

/-- The product summed into output entry (J, q) at row k: adjacency (k, J) times scaled features (k, q). -/
def term (c : Dev nD) (J : Fin 16384) (q : Fin 64) (k : Fin 16384) : EReal :=
  arrAdj V c (ix2 k J) * arrZ V c (ix2 k q)

/-- The output entry (J, q): the epilogue of the full sum. -/
def outSpec (c : Dev nD) (J : Fin 16384) (q : Fin 64) : EReal :=
  Cert.Spec.fin (arrD V c (ix2 J (0 : Fin 1))) (∑ k : Fin 16384, term V c J q k) (arrZ V c (ix2 J q))
    (arrB V c (ix2 (0 : Fin 1) q))

/-- One accumulation step at point t, at entry (p, q): the block's 1024 products are added. -/
theorem step_apply (c : Dev nD) (t : Fin cfg1.N) (xs0 : Vec Ideal S2048x64 .f32) (p : Fin 2048) (q : Fin 64) :
    k1_pay2 (iblk1 V c 0 t) (iblk1 V c 1 t) xs0 (ix2 p q)
      = xs0 (ix2 p q) + ∑ k : Fin 1024, term V c (colIx t p) q (rowIx t k) := by
  refine (Pay.k1_pay2_apply (iblk1 V c 0 t) (iblk1 V c 1 t) xs0 p q).trans ?_
  refine congrArg (fun s => xs0 (ix2 p q) + s) (Finset.sum_congr rfl fun k _ => ?_)
  exact congrArg₂ (fun a b : EReal => a * b) (iblk1_0_apply V c t k p) (iblk1_1_apply V c t k q)

/-- The first 1024·(i+1) terms are the first 1024·i terms plus the terms of row block i. -/
theorem range_step (g : Fin 16384 → EReal) (t : Fin cfg1.N) :
    ∑ r ∈ Finset.range (1024 * (t.val % 16 + 1)), Cert.BlockSums.ext0 g r
      = ∑ r ∈ Finset.range (1024 * (t.val % 16)), Cert.BlockSums.ext0 g r + ∑ k : Fin 1024, g (rowIx t k) := by
  rw [Cert.BlockSums.sum_range_1024_succ]
  refine congrArg (fun s => _ + s) (Finset.sum_congr rfl fun k _ => ?_)
  exact Cert.BlockSums.ext0_of_lt g _ (rowIx t k).isLt

attribute [local irreducible] accA accB accC outC idleOut

/-- What the accumulator holds after a point that is the first row block of its column. -/
theorem acc_first (c : Dev nD) (t : Fin cfg1.N) (h0 : t.val % 16 = 0) :
    (outsAt1 V c t.val t.isLt).2 = k1_pay2 (iblk1 V c 0 t) (iblk1 V c 1 t) (k1_pay1 (F := Ideal)) := by
  have h1 : ¬t.val % 16 = 15 := by omega
  rw [outsAt1_A V c t h0 h1]
  dsimp only
  exact accA_eq V c t h0 h1

/-- What the accumulator holds after any later row block, over what the point before left. -/
theorem acc_later (c : Dev nD) (t : Fin cfg1.N) (h0 : ¬t.val % 16 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h1 : t.val % 16 = 15
  · rw [outsAt1_C V c t h0 h1]
    dsimp only
    exact accC_eq V c t h0 h1 _
  · rw [outsAt1_B V c t h0 h1]
    dsimp only
    exact accB_eq V c t h0 h1 _

/-- THE ACCUMULATOR after point t, at entry (p, q): the sum over the rows of the row blocks so far. -/
theorem acc_apply (c : Dev nD) : ∀ (n : ℕ) (t : Fin cfg1.N), t.val = n → ∀ (p : Fin 2048) (q : Fin 64),
    (outsAt1 V c t.val t.isLt).2 (ix2 p q)
      = ∑ k ∈ Finset.range (1024 * (t.val % 16 + 1)), Cert.BlockSums.ext0 (term V c (colIx t p) q) k := by
  intro n
  induction n with
  | zero =>
    intro t ht p q
    have h0 : t.val % 16 = 0 := by omega
    rw [acc_first V c t h0, step_apply V c t (k1_pay1 (F := Ideal)) p q, range_step (term V c (colIx t p) q) t]
    refine congrArg (fun s => s + _) ?_
    rw [Pay.k1_pay1_apply p q]
    have hz : 1024 * (t.val % 16) = 0 := by omega
    rw [hz, Finset.sum_range_zero]
  | succ n ih =>
    intro t ht p q
    by_cases h0 : t.val % 16 = 0
    · rw [acc_first V c t h0, step_apply V c t (k1_pay1 (F := Ideal)) p q, range_step (term V c (colIx t p) q) t]
      refine congrArg (fun s => s + _) ?_
      rw [Pay.k1_pay1_apply p q]
      have hz : 1024 * (t.val % 16) = 0 := by omega
      rw [hz, Finset.sum_range_zero]
    · rw [acc_later V c t h0, step_apply V c t _ p q, range_step (term V c (colIx t p) q) t]
      refine congrArg (fun s => s + _) ?_
      have hlt : t.val - 1 < cfg1.N := Nat.lt_of_le_of_lt (Nat.sub_le _ _) t.isLt
      have e := ih ⟨t.val - 1, hlt⟩ (by show t.val - 1 = n; omega) p q
      have hcol : colIx ⟨t.val - 1, hlt⟩ p = colIx t p := Fin.ext (by show 2048 * ((t.val - 1) / 16) + p.val = 2048 * (t.val / 16) + p.val; omega)
      have hrow : 1024 * ((t.val - 1) % 16 + 1) = 1024 * (t.val % 16) := by omega
      dsimp only at e
      rw [hcol, hrow] at e
      exact e

/-- At the last row block of a column the accumulator holds the sum over all 16384 rows. -/
theorem acc_last (c : Dev nD) (t : Fin cfg1.N) (h1 : t.val % 16 = 15) (p : Fin 2048) (q : Fin 64) :
    (outsAt1 V c t.val t.isLt).2 (ix2 p q) = ∑ k : Fin 16384, term V c (colIx t p) q k := by
  rw [acc_apply V c t.val t rfl p q]
  have hN : 1024 * (t.val % 16 + 1) = 1024 * 16 := by omega
  rw [hN, Cert.BlockSums.sum_range_1024_16]
  exact Finset.sum_congr rfl fun k _ => Cert.BlockSums.ext0_val _ k

/-- THE OUTPUT BLOCK after the last row block of a column, at entry (p, q). -/
theorem out_apply (c : Dev nD) (t : Fin cfg1.N) (h1 : t.val % 16 = 15) (p : Fin 2048) (q : Fin 64) :
    (outsAt1 V c t.val t.isLt).1 (ix2 p q) = outSpec V c (colIx t p) q := by
  have h0 : ¬t.val % 16 = 0 := by omega
  have hacc := acc_last V c t h1 p q
  rw [outsAt1_C V c t h0 h1] at hacc ⊢
  dsimp only at hacc ⊢
  rw [accC_eq V c t h0 h1 _] at hacc
  rw [outC_eq V c t h0 h1 _]
  refine (Pay.k1_pay3_apply (iblk1 V c 3 t) _ (iblk1 V c 2 t) (iblk1 V c 4 t) p q).trans ?_
  rw [hacc, iblk1_3_apply V c t p, iblk1_2_apply V c t p q, iblk1_4_apply V c t q]
  rfl

end Cert.KernelIdeal.Hand

end
-- ==== Proof.IGcnFinal.lean ====
/-
  The aggregation kernel's output array after the region: every entry (J, q) holds the epilogue of the full sum,
  max(0, scale(J) · (Σ_k adjacency(k, J) · features(k, q) + features(J, q)) + bias(q)). The last row block of column
  block j writes rows 2048·j … 2048·j + 2047 back, and the eight column blocks cover the 16384 rows.
-/
import proofs.«150147_j40415642255629_2_alg».proof.Proof.IGcnSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The output array in closed form. -/
def outArr1 (c : Dev nD) : FVec Ideal S16384x64 .f32 := fun idx => outSpec V c (idx 0) (idx 1)

theorem outArr1_apply (c : Dev nD) (J : Fin 16384) (q : Fin 64) : outArr1 V c (ix2 J q) = outSpec V c J q := rfl

/-- What a writing point writes back is its block of the closed form. -/
theorem flushed5_eq (c : Dev nD) (t : Fin cfg1.N) (hf : (cfg1.win 5).flush t = true) :
    (dat1 V c).flushed 5 t = ((cfg1.win 5).blk t).view.read (Elt Ideal) (outArr1 V c) := by
  have h1 : t.val % 16 = 15 := (flush1_5 t).mp hf
  show (cfg1.win 5).cut (grid1.coords t) ((dat1 V c).after 5 t) = _
  rw [after1_5]
  funext y
  obtain ⟨p, q, rfl⟩ : ∃ (p : Fin 2048) (q : Fin 64), y = ix2 p q := ⟨y 0, y 1, eq_ix2 y⟩
  show (outsAt1 V c t.val t.isLt).1 (ix2 p q) = outArr1 V c (((cfg1.win 5).blk t).view.emb (ix2 p q))
  rw [out_apply V c t h1 p q]
  have e : ((cfg1.win 5).blk t).view.emb (ix2 p q) = ix2 (colIx t p) q := by
    funext a; apply Fin.ext
    obtain ⟨-, -, -, -, -, -, -, -, -, -, e0, e1⟩ := idx_facts1 t
    match a with
    | ⟨0, _⟩ => show win1_5.index t (0 : Fin 2) * 2048 + 1 * p.val = 2048 * (t.val / 16) + p.val; omega
    | ⟨1, _⟩ => show win1_5.index t (1 : Fin 2) * 64 + 1 * q.val = q.val; omega
  rw [e]
  rfl

/-- An index of the array is in point t's block iff each coordinate is in the block's range on its axis. -/
theorem mem_blk5 (t : Fin cfg1.N) (i : S16384x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole main_v6).slice (win1_5.rect t)).set ↔ _
  rw [View.set_slice_whole, Rect.mem_set_unit]
  exact Iff.rfl

/-- THE OUTPUT ARRAY after the region. -/
theorem gcn_final (c : Dev nD) : (dat1 V c).arrAt 5 cfg1.N = outArr1 V c :=
  (dat1 V c).arrAt_eq_of_cover 5 (outArr1 V c) (flushed5_eq V c) fun i => by
    have hi0 : (i 0).val < 16384 := (i 0).isLt
    have hi1 : (i 1).val < 64 := (i 1).isLt
    have hN : cfg1.N = 128 := N1_eq
    have hlt : 16 * ((i 0).val / 2048) + 15 < cfg1.N := by omega
    refine ⟨⟨16 * ((i 0).val / 2048) + 15, hlt⟩, (flush1_5 _).mpr (by show (16 * ((i 0).val / 2048) + 15) % 16 = 15; omega), ?_⟩
    rw [mem_blk5]
    intro a
    obtain ⟨-, -, -, -, -, -, -, -, -, -, e0, e1⟩ := idx_facts1 ⟨16 * ((i 0).val / 2048) + 15, hlt⟩
    have e0' : win1_5.index ⟨16 * ((i 0).val / 2048) + 15, hlt⟩ (0 : Fin 2) = (16 * ((i 0).val / 2048) + 15) / 16 := e0
    match a with
    | ⟨0, _⟩ =>
      show win1_5.index ⟨16 * ((i 0).val / 2048) + 15, hlt⟩ (0 : Fin 2) * 2048 ≤ (i 0).val ∧ (i 0).val < win1_5.index ⟨16 * ((i 0).val / 2048) + 15, hlt⟩ (0 : Fin 2) * 2048 + 2048
      rw [e0']; omega
    | ⟨1, _⟩ =>
      show win1_5.index ⟨16 * ((i 0).val / 2048) + 15, hlt⟩ (1 : Fin 2) * 64 ≤ (i 1).val ∧ (i 1).val < win1_5.index ⟨16 * ((i 0).val / 2048) + 15, hlt⟩ (1 : Fin 2) * 64 + 64
      rw [e1]; omega

end Cert.KernelIdeal.Hand

end
-- ==== Proof.IOut.lean ====
/-
  The program's result at the extended reals: the array the aggregation region leaves is the graph-convolution
  layer of the launch arguments, index by index; and the run restated with that value.
-/
import proofs.«150147_j40415642255629_2_alg».proof.Proof.IGlue
import proofs.«150147_j40415642255629_2_alg».proof.Proof.IFrame
import proofs.«150147_j40415642255629_2_alg».proof.Proof.IDegAcc
import proofs.«150147_j40415642255629_2_alg».proof.Proof.Compose
import proofs.«150147_j40415642255629_2_alg».proof.Proof.IGcnFinal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay
open scoped BigOperators

variable (m : (ℓ : Loc nD τ sig) → Buf (Elt Ideal) ℓ) (ρ : Dev nD → PrngReg)

/-- The launch's adjacency matrix, at its shape. -/
abbrev adj0 (c : Dev nD) : FVec Ideal S16384x16384 .f32 := m ((c : Thread nD τ).loc main_arg1)

/-- The adjacency when the degree region is entered is the launch's. -/
theorem V1_adj (c : Dev nD) : (V1 m ρ c main_arg1 : FVec Ideal S16384x16384 .f32) = m ((c : Thread nD τ).loc main_arg1) :=
  (W1_keep m ρ c main_arg1 (by decide)).trans rfl

/-- The adjacency when the aggregation region is entered is the launch's. -/
theorem V3_adj (c : Dev nD) : (V3 m ρ c main_arg1 : FVec Ideal S16384x16384 .f32) = m ((c : Thread nD τ).loc main_arg1) :=
  (W3_keep m ρ c main_arg1 (by decide)).trans ((W2_adj m ρ c).trans (V1_adj m ρ c))

/-- The normaliser row the degree region leaves, at node n. -/
theorem aV1_apply (c : Dev nD) (n : Fin 16384) :
    aV1 m ρ c (ix2 (0 : Fin 1) n) = Cert.Spec.dinv (m ((c : Thread nD τ).loc main_arg1)) n :=
  (congrFun (W2_arr m ρ c 1) (ix2 (0 : Fin 1) n)).trans
    ((deg_final (V1 m ρ) c n).trans (congrArg (fun a => Cert.Spec.dinv a n) (V1_adj m ρ c)))

/-- The bias row, at feature f. -/
theorem aV5_apply (c : Dev nD) (f : Fin 64) :
    aV5 m ρ c (ix2 (0 : Fin 1) f) = (m ((c : Thread nD τ).loc main_arg3) : FVec Ideal S64 .f32) (ix1 f) := by
  rw [W3_v5_eq]
  refine (host_reshape_row_apply _ f).trans ?_
  exact congrFun ((W2_of_ne m ρ c main_arg3 (by decide)).trans ((W1_keep m ρ c main_arg3 (by decide)).trans rfl)) (ix1 f)

/-- The result the aggregation region leaves, at (j, f). -/
theorem aV6_apply (c : Dev nD) (j : Fin 16384) (f : Fin 64) :
    aV6 m ρ c (ix2 j f)
      = Cert.Spec.fin (aV2 m ρ c (ix2 j (0 : Fin 1)))
          (∑ k : Fin 16384, adj0 m c (ix2 k j) * aV4 m ρ c (ix2 k f))
          (aV4 m ρ c (ix2 j f)) (aV5 m ρ c (ix2 (0 : Fin 1) f)) := by
  refine (congrFun (V4_out m ρ c) (ix2 j f)).trans ((congrFun (gcn_final (V3 m ρ) c) (ix2 j f)).trans ?_)
  refine (outArr1_apply (V3 m ρ) c j f).trans ?_
  unfold outSpec term
  exact congrArg (fun a : FVec Ideal S16384x16384 .f32 => Cert.Spec.fin (aV2 m ρ c (ix2 j (0 : Fin 1)))
    (∑ k : Fin 16384, a (ix2 k j) * aV4 m ρ c (ix2 k f)) (aV4 m ρ c (ix2 j f)) (aV5 m ρ c (ix2 (0 : Fin 1) f))) (V3_adj m ρ c)

/-- THE RESULT: the array the program leaves in its result buffer is the layer's output of the launch arguments. -/
theorem out_eq (c : Dev nD) :
    (W4 m ρ c main_v6 : FVec Ideal S16384x64 .f32)
      = Cert.Spec.outArr (m ((c : Thread nD τ).loc main_arg0)) (m ((c : Thread nD τ).loc main_arg1))
          (m ((c : Thread nD τ).loc main_arg2)) (m ((c : Thread nD τ).loc main_arg3)) :=
  Cert.Spec.compose _ _ _ _ (aV0 m ρ c) (aV1 m ρ c) (aV2 m ρ c) (aV4 m ρ c) (aV5 m ρ c) (aV6 m ρ c)
    (W1_v0_apply m ρ c) (aV1_apply m ρ c) (W3_v2_apply m ρ c) (W3_v4_apply m ρ c) (aV5_apply m ρ c) (aV6_apply m ρ c)

/-- THE RUN with its value: every weakly fair execution terminates; the result buffer ends at the layer's output of
    the launch arguments and the four arguments end as launched. -/
theorem run_value : θ_run (defs (F := Ideal)) (onTc (τ := τ) (main (F := Ideal))) ⟨m, fun _ => 0, ρ⟩ (fun r => ∀ c : Dev nD,
      r.2.mem ((c.tc : Thread nD τ).loc main_v6) = Cert.Spec.outArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_eq m ρ c), (h c).2⟩) (run_read m ρ)

end Cert.KernelIdeal.Hand

end
-- ==== Proof.RefSide.lean ====
import proofs.«150147_j40415642255629_2_alg».proof.Proof.Gen.ReferenceIdeal.Read
import proofs.«150147_j40415642255629_2_alg».proof.Proof.Spec

/-!
  The reference program computes the specification: its result array is `Cert.Spec.outArr` of its
  four argument arrays. Each stage of the reference is read at an index built from literal coordinates,
  innermost stage first, and the last stage is the specification's `out`.
-/

noncomputable section

open scoped BigOperators

namespace Cert.RefSide

open Idealize.ShloMosaic Idealize.ShloMosaic.ValueIdx Idealize.ShloMosaic.TcCoe Idealize.SL.Sem
open Cert.ReferenceIdeal Cert.ReferenceIdeal.Gen Cert.ReferenceIdeal.Read

/-! ## Index equations -/

theorem idx_v0 (n k : Fin 16384) : idx_main_v0 (ix1 n) k = ix2 k n :=
  funext fun a => Fin.ext (by match a with | ⟨0, _⟩ => rfl | ⟨1, _⟩ => rfl)
theorem idx_v8_v9 (r : Fin 16384) (f : Fin 64) : idx_main_v8 (idx_main_v9 (ix2 r f)) = ix1 r :=
  funext fun a => Fin.ext (by match a with | ⟨0, _⟩ => rfl)
theorem idx_v11_v15 (r : Fin 16384) (f : Fin 64) : idx_main_v11 (idx_main_v15 (ix2 r f)) = ix1 r :=
  funext fun a => Fin.ext (by match a with | ⟨0, _⟩ => rfl)
theorem lidx_v7 (r : Fin 16384) (f k : Fin 64) : lidx_main_v7 (ix2 r f) k = ix2 r k :=
  funext fun a => Fin.ext (by match a with | ⟨0, _⟩ => rfl | ⟨1, _⟩ => rfl)
theorem ridx_v7 (r : Fin 16384) (f k : Fin 64) : ridx_main_v7 (ix2 r f) k = ix2 k f :=
  funext fun a => Fin.ext (by match a with | ⟨0, _⟩ => rfl | ⟨1, _⟩ => rfl)
theorem lidx_v13 (j : Fin 16384) (f : Fin 64) (k : Fin 16384) : lidx_main_v13 (ix2 j f) k = ix2 j k :=
  funext fun a => Fin.ext (by match a with | ⟨0, _⟩ => rfl | ⟨1, _⟩ => rfl)
theorem ridx_v13 (j : Fin 16384) (f : Fin 64) (k : Fin 16384) : ridx_main_v13 (ix2 j f) k = ix2 k f :=
  funext fun a => Fin.ext (by match a with | ⟨0, _⟩ => rfl | ⟨1, _⟩ => rfl)
theorem idx_v12 (j k : Fin 16384) : idx_main_v12 (ix2 j k) = ix2 k j :=
  funext fun a => Fin.ext (by match a with | ⟨0, _⟩ => rfl | ⟨1, _⟩ => rfl)
theorem idx_v17_v18 (j : Fin 16384) (f : Fin 64) : idx_main_v17 (idx_main_v18 (ix2 j f)) = ix1 f :=
  funext fun a => Fin.ext (by match a with | ⟨0, _⟩ => rfl)

/-! ## The stages at an index -/

/-- The degree with its self loop: the column sum plus one. -/
theorem v2_at (adj : FVec Ideal S16384x16384 .f32) (n : Fin 16384) :
    val_main_v2 (F := Ideal) adj (ix1 n) = Cert.Spec.colsum adj n + Ideal.ofBits .f32 0x3F800000#32 := by
  rw [val_main_v2_apply, val_main_v0_apply, val_main_v1_apply, val_main_cst_apply, val_main_cst_0_apply]
  show (Ideal.ofBits .f32 0x00000000#32 + ∑ k : Fin 16384, adj (idx_main_v0 (ix1 n) k))
      + Ideal.ofBits .f32 0x3F800000#32 = _
  rw [Ideal.ofBits_zero_f32, zero_add]
  exact congrArg (· + Ideal.ofBits .f32 0x3F800000#32) (Finset.sum_congr rfl fun k _ => by rw [idx_v0])

/-- The normalisation of a node. -/
theorem v6_at (adj : FVec Ideal S16384x16384 .f32) (n : Fin 16384) :
    val_main_v6 (F := Ideal) adj (ix1 n) = Cert.Spec.dinv adj n := by
  rw [val_main_v6_apply, val_main_v4_apply, val_main_v5_apply, val_main_call0_v1_apply, val_main_call0_v0_apply,
    val_main_cst_2_apply, val_main_v3_apply, val_main_cst_1_apply, v2_at]
  unfold Cert.Spec.dinv Cert.Spec.dinvOf
  rw [Ideal.cmpf_def, Ideal.hostUnary_rsqrt_def, Ideal.ofBits_def]

theorem v9_at (adj : FVec Ideal S16384x16384 .f32) (r : Fin 16384) (f : Fin 64) :
    val_main_v9 (F := Ideal) adj (ix2 r f) = Cert.Spec.dinv adj r := by
  rw [val_main_v9_apply, val_main_v8_apply, idx_v8_v9, v6_at]

theorem v15_at (adj : FVec Ideal S16384x16384 .f32) (r : Fin 16384) (f : Fin 64) :
    val_main_v15 (F := Ideal) adj (ix2 r f) = Cert.Spec.dinv adj r := by
  rw [val_main_v15_apply, val_main_v11_apply, idx_v11_v15, v6_at]

/-- The feature transform. -/
theorem v7_at (x : FVec Ideal S16384x64 .f32) (W : FVec Ideal S64x64 .f32) (r : Fin 16384) (f : Fin 64) :
    val_main_v7 (F := Ideal) x W (ix2 r f) = Cert.Spec.xw x W r f := by
  rw [val_main_v7_apply]
  exact Finset.sum_congr rfl fun k _ => by rw [lidx_v7, ridx_v7]

/-- The scaled features. -/
theorem v10_at (x : FVec Ideal S16384x64 .f32) (adj : FVec Ideal S16384x16384 .f32) (W : FVec Ideal S64x64 .f32)
    (r : Fin 16384) (f : Fin 64) :
    val_main_v10 (F := Ideal) x adj W (ix2 r f) = Cert.Spec.z x adj W r f := by
  rw [val_main_v10_apply, v9_at, v7_at]
  rfl

/-- The aggregation over the transposed adjacency matrix. -/
theorem v13_at (x : FVec Ideal S16384x64 .f32) (adj : FVec Ideal S16384x16384 .f32) (W : FVec Ideal S64x64 .f32)
    (j : Fin 16384) (f : Fin 64) :
    val_main_v13 (F := Ideal) x adj W (ix2 j f) = ∑ k : Fin 16384, adj (ix2 k j) * Cert.Spec.z x adj W k f := by
  rw [val_main_v13_apply]
  exact Finset.sum_congr rfl fun k _ => by rw [lidx_v13, ridx_v13, val_main_v12_apply, idx_v12, v10_at]

/-- The bias, broadcast along the rows. -/
theorem v18_at (b : FVec Ideal S64 .f32) (j : Fin 16384) (f : Fin 64) :
    val_main_v18 (F := Ideal) b (ix2 j f) = b (ix1 f) := by
  rw [val_main_v18_apply, val_main_v17_apply, idx_v17_v18]

/-- The last stage is the specification at an index. -/
theorem v20_at (x : FVec Ideal S16384x64 .f32) (adj : FVec Ideal S16384x16384 .f32) (W : FVec Ideal S64x64 .f32)
    (b : FVec Ideal S64 .f32) (j : Fin 16384) (f : Fin 64) :
    val_main_v20 (F := Ideal) x adj W b (ix2 j f) = Cert.Spec.out x adj W b j f := by
  rw [val_main_v20_apply, val_main_v19_apply, val_main_v16_apply, val_main_v14_apply, v15_at, v13_at, v10_at, v18_at,
    val_main_call1_v0_apply, val_main_call1_cst_apply]
  rfl

/-- The reference's result array is the specification's. -/
theorem ref_eq (x : FVec Ideal S16384x64 .f32) (adj : FVec Ideal S16384x16384 .f32) (W : FVec Ideal S64x64 .f32)
    (b : FVec Ideal S64 .f32) : val_main_v20 (F := Ideal) x adj W b = Cert.Spec.outArr x adj W b := by
  funext i
  obtain ⟨j, f, rfl⟩ : ∃ (j : Fin 16384) (f : Fin 64), i = ix2 j f := ⟨i 0, i 1, eq_ix2 i⟩
  exact v20_at x adj W b j f

/-! ## The run -/

/-- Every weakly fair execution of the reference terminates with its result array the specification of its
    argument arrays, and the argument arrays unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v20)
          = Cert.Spec.outArr (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((val_main_v20_eq (F := Ideal) _ _ _ _).trans (ref_eq _ _ _ _)), (h c).2⟩)
    (Cert.ReferenceIdeal.Value.run (F := Ideal) m' ρ')

end Cert.RefSide

end
-- ==== Proof.lean ====
/-
  A graph-convolution layer, out = relu(d · (Aᵀ z + z) + b) with z = d · (x W) and d the inverse square root of the
  column degrees of A plus one (zero where the degree is not positive), computed by two kernels — one accumulating the
  column sums of A over eight row blocks, one accumulating Aᵀ z over sixteen row blocks and finishing with the scaling,
  the self term, the bias and the clamp — against the same layer written with whole-array operations.
  At the extended reals both compute one function of the four argument arrays: a column sum is the sum of its eight
  block sums, a contraction over all rows the sum of its sixteen block contractions (finite sums regroup freely; nothing
  needs the inputs finite), and every other step is the same operation on both sides.
  The three frames: each kernel's region is run point by point (first row block, middle, last), its accumulator carried
  in the region's invariant; the two regions and the two host stretches between them chain over the contents of every
  unscoped buffer; the second region holds the feature array, staged through two windows, half and half.
-/
import proofs.«150147_j40415642255629_2_alg».proof.Defs
import proofs.«150147_j40415642255629_2_alg».proof.Proof.Gen.Kernel
import proofs.«150147_j40415642255629_2_alg».proof.Proof.Gen.KernelIdeal
import proofs.«150147_j40415642255629_2_alg».proof.Proof.Gen.ReferenceIdeal
import proofs.«150147_j40415642255629_2_alg».proof.Proof.Gen.Pre_finite_inputs
import proofs.«150147_j40415642255629_2_alg».proof.Proof.KFrame
import proofs.«150147_j40415642255629_2_alg».proof.Proof.IOut
import proofs.«150147_j40415642255629_2_alg».proof.Proof.RefSide

noncomputable section

namespace Cert.Proof

open Idealize.ShloMosaic Idealize.SL.Sem

/-- The word-level program runs to its end and leaves its arguments as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- So does the reference: its run, with the result dropped. -/
theorem frame_ri : Cert.frame_ReferenceIdeal := fun m ρ _ =>
  (θ_run Cert.ReferenceIdeal.defs _ _).mono (fun _ h c => (h c).2) (Cert.RefSide.run m ρ)

/-- At the extended reals the two programs end with the same array: the layer as one function of the arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
